-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S2x128 .f32) (main_arg6 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S2x128x128 .f32) (main_arg3 : FVec F S2x128 .f32) (main_arg4 : FVec F S2x128x128 .f32) (main_arg5 : FVec F S2x128 .f32) (main_arg6 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000x128 : Shape := ⟨2, ![800000, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 82
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S2x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S1x128x128, .f32⟩
  | .hbm, ⟨25, _⟩ => ⟨S128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S1x128x128, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S128x128, .f32⟩
  | .hbm, ⟨58, _⟩ => ⟨S128x128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_5 : Ref sig .tc := ⟨.hbm, 68, rfl⟩
abbrev main_v54 : Ref sig .tc := ⟨.hbm, 69, rfl⟩
abbrev main_v55 : Ref sig .tc := ⟨.hbm, 70, rfl⟩
abbrev main_c_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128_S1x128_0_0 : S2x128.Slices ![0, 0] S1x128
  shapeCasts_S1x128_S128 : S1x128.ShapeCasts S128
  shapeCasts_S128_S1x128 : S128.ShapeCasts S1x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  slices_S2x128x128_S1x128x128_1_0_0 : S2x128x128.Slices ![1, 0, 0] S1x128x128
  slices_S2x128_S1x128_1_0 : S2x128.Slices ![1, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v37) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v63) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v64) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 191
  | .vmem => 0
  | .smem => 0
  | _ => 0

abbrev hbmTy0_0 (i : Nat) : BufTy := match i % 128 with
  | 0 => ⟨S50000x128, .f32⟩
  | 1 => ⟨S2x800000, .i32⟩
  | 2 => ⟨S2x128x128, .f32⟩
  | 3 => ⟨S2x128, .f32⟩
  | 4 => ⟨S2x128x128, .f32⟩
  | 5 => ⟨S2x128, .f32⟩
  | 6 => ⟨S2x128, .f32⟩
  | 7 => ⟨S1x800000, .i32⟩
  | 8 => ⟨S800000, .i32⟩
  | 9 => ⟨S1x800000, .i32⟩
  | 10 => ⟨S800000, .i32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S_, .i32⟩
  | 64 => ⟨S_, .f32⟩
  | 65 => ⟨S50000, .f32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S50000, .f32⟩
  | 78 => ⟨S50000x1, .f32⟩
  | 79 => ⟨S50000x1, .f32⟩
  | 80 => ⟨S50000x1, .f32⟩
  | 81 => ⟨S_, .f32⟩
  | 82 => ⟨S_, .i1⟩
  | 83 => ⟨S_, .f32⟩
  | 84 => ⟨S_, .f32⟩
  | 85 => ⟨S50000x1, .f32⟩
  | 86 => ⟨S50000x1, .f32⟩
  | 87 => ⟨S50000x128, .f32⟩
  | 88 => ⟨S50000x128, .f32⟩
  | 89 => ⟨S_, .f32⟩
  | 90 => ⟨S50000x1, .f32⟩
  | 91 => ⟨S50000x1, .f32⟩
  | 92 => ⟨S50000x1, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S_, .f32⟩
  | 125 => ⟨S800000, .f32⟩
  | 126 => ⟨S_, .f32⟩
  | 127 => ⟨S50000, .f32⟩
  | _ => ⟨S50000x128, .f32⟩

abbrev hbmTy0_1 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x128, .f32⟩
  | 7 => ⟨S50000x128, .f32⟩
  | 8 => ⟨S128x128, .f32⟩
  | 9 => ⟨S50000x128, .f32⟩
  | 10 => ⟨S1x128, .f32⟩
  | 11 => ⟨S50000x128, .f32⟩
  | 12 => ⟨S50000x128, .f32⟩
  | 13 => ⟨S128x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S_, .i32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S50000x128, .f32⟩
  | 35 => ⟨S_, .f32⟩
  | 36 => ⟨S_, .f32⟩
  | 37 => ⟨S_, .f32⟩
  | 38 => ⟨S_, .f32⟩
  | 39 => ⟨S50000, .f32⟩
  | 40 => ⟨S50000x1, .f32⟩
  | 41 => ⟨S50000x1, .f32⟩
  | 42 => ⟨S50000x1, .f32⟩
  | 43 => ⟨S_, .f32⟩
  | 44 => ⟨S_, .i1⟩
  | 45 => ⟨S_, .f32⟩
  | 46 => ⟨S_, .f32⟩
  | 47 => ⟨S50000x1, .f32⟩
  | 48 => ⟨S50000x1, .f32⟩
  | 49 => ⟨S50000x128, .f32⟩
  | 50 => ⟨S50000x128, .f32⟩
  | 51 => ⟨S_, .f32⟩
  | 52 => ⟨S50000x1, .f32⟩
  | 53 => ⟨S50000x1, .f32⟩
  | 54 => ⟨S50000x1, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_cst : Ref sig .tc := ⟨.hbm, 54, rfl⟩
abbrev main_call0_v0 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_cst_3 : Ref sig .tc := ⟨.hbm, 81, rfl⟩
abbrev main_call1_v13 : Ref sig .tc := ⟨.hbm, 82, rfl⟩
abbrev main_call1_cst_4 : Ref sig .tc := ⟨.hbm, 83, rfl⟩
abbrev main_call1_call0_v0 : Ref sig .tc := ⟨.hbm, 84, rfl⟩
abbrev main_call1_call0_v1 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_7 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_8 : Ref sig .tc := ⟨.hbm, 111, rfl⟩
abbrev main_v70 : Ref sig .tc := ⟨.hbm, 112, rfl⟩
abbrev main_v71 : Ref sig .tc := ⟨.hbm, 113, rfl⟩
abbrev main_c_9 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_10 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_11 : Ref sig .tc := ⟨.hbm, 124, rfl⟩
abbrev main_v80 : Ref sig .tc := ⟨.hbm, 125, rfl⟩
abbrev main_cst_12 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_13 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_call2_cst : Ref sig .tc := ⟨.hbm, 144, rfl⟩
abbrev main_call2_v0 : Ref sig .tc := ⟨.hbm, 145, rfl⟩
abbrev main_v97 : Ref sig .tc := ⟨.hbm, 146, rfl⟩
abbrev main_cst_14 : Ref sig .tc := ⟨.hbm, 147, rfl⟩
abbrev main_v98 : Ref sig .tc := ⟨.hbm, 148, rfl⟩
abbrev main_v99 : Ref sig .tc := ⟨.hbm, 149, rfl⟩
abbrev main_cst_15 : Ref sig .tc := ⟨.hbm, 150, rfl⟩
abbrev main_v100 : Ref sig .tc := ⟨.hbm, 151, rfl⟩
abbrev main_v101 : Ref sig .tc := ⟨.hbm, 152, rfl⟩
abbrev main_c_16 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_cst_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_v7 : Ref sig .tc := ⟨.hbm, 163, rfl⟩
abbrev main_call3_cst_1 : Ref sig .tc := ⟨.hbm, 164, rfl⟩
abbrev main_call3_v8 : Ref sig .tc := ⟨.hbm, 165, rfl⟩
abbrev main_call3_cst_2 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_v12 : Ref sig .tc := ⟨.hbm, 170, rfl⟩
abbrev main_call3_cst_3 : Ref sig .tc := ⟨.hbm, 171, rfl⟩
abbrev main_call3_v13 : Ref sig .tc := ⟨.hbm, 172, rfl⟩
abbrev main_call3_cst_4 : Ref sig .tc := ⟨.hbm, 173, rfl⟩
abbrev main_call3_call0_v0 : Ref sig .tc := ⟨.hbm, 174, rfl⟩
abbrev main_call3_call0_v1 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_cst_17 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S2x128x128_S1x128x128_1_0_0 : S2x128x128.Slices ![1, 0, 0] S1x128x128
  slices_S2x128_S1x128_1_0 : S2x128.Slices ![1, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run with every result named.

  The generated frame run keeps only the argument arrays in its post. The same launch theorem, over the same segments
  (the host stretch before the first launch, the first launch, the stretch between, the second launch), gives more: the
  last thread state holds EVERY unscoped TensorCore buffer at the contents of the last segment boundary, so every weakly
  fair execution ends with each such buffer at those contents — the result buffer among them.
-/
import proofs.«100400_j1142461300900_2_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with every unscoped TensorCore buffer
    at the last segment boundary's contents. -/
theorem run_end : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.RunAll

end
-- ==== Proof.SageRow.lean ====
/-
  One SAGE layer, row by row, on the extended reals.

  A layer takes, for each node p, the row a = agg[p, ·] of summed neighbour features, the node's own row h = h[p, ·],
  and a degree d ≥ 1, and returns the layer-normalised rectified row

      out[p, ·] = LN( max(z, 0) ) · γ + β,      z = (a / d) · Wl + h · Wr + b,

  with LN(r) = (r − mean r) · rsqrt( mean((r − mean r)²) + ε ), the means being sums over the 128 features divided by 128.
  The two programs spell z differently: one multiplies each a[k] by the reciprocal 1/d computed beforehand and adds the
  bias last, (a·(1/d))·Wl + h·Wr + b; the other divides each a[k] by d and adds the bias in the middle,
  (a/d)·Wl + b + h·Wr. On the extended reals a division by a NONZERO d is the product with d⁻¹, whatever a is (finite or
  not), so a·(1/d) = a·(1·d⁻¹) = a·d⁻¹ = a/d; and addition is commutative and associative. Nothing else differs, so the
  two rows are equal for every d ≠ 0 — no finiteness of the inputs is needed. The float words (0, 1, 128, ε) are kept as
  the words both programs spell; only 1 is ever evaluated.
-/
import Idealize.ShloMosaic.PureOps.Ideal
import Idealize.ShloMosaic.PureOps.Ideal.Laws
import Idealize.ShloMosaic.Lib.ValueIdx

noncomputable section

open scoped BigOperators

namespace Cert.SageRow

open Idealize.ShloMosaic Idealize.ShloMosaic.ValueIdx

/-- The word of 1.0 denotes 1. -/
theorem word_one : Ideal.ofBits .f32 0x3F800000#32 = 1 := by
  simp [Ideal.ofBits, Ideal.ieee, -EReal.coe_mul]; norm_num

/-- The word of 128.0 denotes the real 128. -/
theorem word_128 : Ideal.ofBits .f32 0x43000000#32 = ((128 : ℝ) : EReal) := by
  simp [Ideal.ofBits, Ideal.ieee, -EReal.coe_mul]; norm_num

/-- A row rectified: each entry's maximum with the zero word. -/
def rect (z : Fin 128 → EReal) : Fin 128 → EReal := fun j => max (z j) (Ideal.ofBits .f32 0x00000000#32)

/-- The mean of a row of 128 entries: its sum divided by the word of 128. -/
def mean (r : Fin 128 → EReal) : EReal := Ideal.div (∑ j : Fin 128, r j) (Ideal.ofBits .f32 0x43000000#32)

/-- A row with its mean taken off every entry. -/
def centred (r : Fin 128 → EReal) : Fin 128 → EReal := fun j => r j - mean r

/-- Layer normalisation of the rectified row z, scaled by γ and shifted by β, at feature o:
    (r − mean r)[o] · rsqrt( mean((r − mean r)²) + ε ) · γ[o] + β[o] with r = max(z, 0). -/
def normRow (z g be : Fin 128 → EReal) (o : Fin 128) : EReal :=
  centred (rect z) o
      * Ideal.rsqrt (mean (fun j => centred (rect z) j * centred (rect z) j) + Ideal.ofBits .f32 0x3727C5AC#32)
      * g o + be o

/-- The pre-activation as the kernel spells it: the aggregated row times a reciprocal s, through Wl; plus the node's own row
    through Wr; plus the bias, last. -/
def preMul (a h : Fin 128 → EReal) (s : EReal) (Wl Wr : Fin 128 → Fin 128 → EReal) (b : Fin 128 → EReal) (o : Fin 128) : EReal :=
  ((∑ k : Fin 128, (a k * s) * Wl k o) + ∑ k : Fin 128, h k * Wr k o) + b o

/-- The pre-activation as the reference spells it: the aggregated row divided by the degree d, through Wl; plus the bias;
    plus the node's own row through Wr. -/
def preDiv (a h : Fin 128 → EReal) (d : EReal) (Wl Wr : Fin 128 → Fin 128 → EReal) (b : Fin 128 → EReal) (o : Fin 128) : EReal :=
  ((∑ k : Fin 128, Ideal.div (a k) d * Wl k o) + b o) + ∑ k : Fin 128, h k * Wr k o

/-- Multiplying by the reciprocal of a nonzero d is dividing by d, for every extended real x. -/
theorem mul_recip (x : EReal) {d : EReal} (hd : d ≠ 0) :
    x * Ideal.div (Ideal.ofBits .f32 0x3F800000#32) d = Ideal.div x d := by
  rw [word_one]
  unfold Ideal.div
  rw [if_neg hd, if_neg hd, one_mul]

/-- The two spellings of the pre-activation agree when the degree is not zero. -/
theorem preMul_eq_preDiv (a h : Fin 128 → EReal) {d : EReal} (hd : d ≠ 0) (Wl Wr : Fin 128 → Fin 128 → EReal)
    (b : Fin 128 → EReal) :
    preMul a h (Ideal.div (Ideal.ofBits .f32 0x3F800000#32) d) Wl Wr b = preDiv a h d Wl Wr b := by
  funext o
  unfold preMul preDiv
  simp only [mul_recip _ hd]
  exact add_right_comm _ _ _

/-- A maximum with the word of 1.0 is not zero. -/
theorem max_one_ne_zero (x : EReal) : max x (Ideal.ofBits .f32 0x3F800000#32) ≠ 0 := by
  rw [word_one]
  exact ne_of_gt (lt_of_lt_of_le zero_lt_one (le_max_right x 1))

/-- One output row as the kernel computes it. -/
def rowMul (a h : Fin 128 → EReal) (s : EReal) (Wl Wr : Fin 128 → Fin 128 → EReal) (b g be : Fin 128 → EReal) : Fin 128 → EReal :=
  normRow (preMul a h s Wl Wr b) g be

/-- One output row as the reference computes it. -/
def rowDiv (a h : Fin 128 → EReal) (d : EReal) (Wl Wr : Fin 128 → Fin 128 → EReal) (b g be : Fin 128 → EReal) : Fin 128 → EReal :=
  normRow (preDiv a h d Wl Wr b) g be

/-- The two rows are one row when the degree is not zero. -/
theorem rowMul_eq_rowDiv (a h : Fin 128 → EReal) {d : EReal} (hd : d ≠ 0) (Wl Wr : Fin 128 → Fin 128 → EReal)
    (b g be : Fin 128 → EReal) :
    rowMul a h (Ideal.div (Ideal.ofBits .f32 0x3F800000#32) d) Wl Wr b g be = rowDiv a h d Wl Wr b g be := by
  unfold rowMul rowDiv
  rw [preMul_eq_preDiv a h hd]

end Cert.SageRow

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.BlockRows0.lean ====
/-
  What the fused layer kernel's body stores, row by row, on the extended reals (the first launch's text of the body).

  The body holds a block of 5000 rows. For row r it multiplies the aggregated features a = agg[r, ·] by the row's
  reciprocal degree s = inv_deg[r, 0], contracts the result with Wl and the node's own features h = h[r, ·] with Wr (two
  matrix products into zero accumulators; the roundings to bf16 on the way in are the identity on the extended reals),
  adds the bias row, rectifies, and layer-normalises over the 128 features: exactly `SageRow.rowMul` of the row's data.
  Every step is pointwise in the row except the two products (sums over the contracted coordinate) and the two row sums.
-/
import proofs.«100400_j1142461300900_2_alg».proof.Proof.Gen.KernelIdeal.Skeleton
import proofs.«100400_j1142461300900_2_alg».proof.Proof.SageRow
import proofs.«100400_j1142461300900_2_alg».proof.Proof.LibKeepdims
import proofs.«100400_j1142461300900_2_alg».proof.Proof.LibPlainDot
import proofs.«100400_j1142461300900_2_alg».proof.Proof.LibRowReduce
import Idealize.ShloMosaic.Lib.ValueLayout
import Idealize.ShloMosaic.Lib.Pipeline.Value

noncomputable section

open scoped BigOperators

namespace Cert.KernelIdeal.BlockRows0

open Idealize.ShloMosaic Idealize.ShloMosaic.ValueIdx Cert.KernelIdeal Cert.KernelIdeal.Gen Cert.SageRow

variable (v0 : FVec Ideal S5000x128 .f32) (v2 : FVec Ideal S5000x1 .f32) (v6 : FVec Ideal S5000x128 .f32)
  (v9 v12 : FVec Ideal S128x128 .f32) (v18 v40 v44 : FVec Ideal S1x128 .f32)

/-- The row's pre-activation, as the kernel spells it, from the block's loads. -/
abbrev zrow (r : Fin 5000) : Fin 128 → EReal :=
  preMul (fun k => v0 (ix2 r k)) (fun k => v6 (ix2 r k)) (v2 (ix2 r (0 : Fin 1))) (fun k o => v9 (ix2 k o)) (fun k o => v12 (ix2 k o))
    (fun o => v18 (ix2 (0 : Fin 1) o))

/-- The block after the two products, the bias and the rectifier. -/
def act : FVec Ideal S5000x128 .f32 :=
  maximumf
    (addf
      (addf
        (matmul dot_S5000x128_S128x128_S5000x128_1_0_0_1_n_n none
          (truncf .bf16 (mulf (shapeCast S5000x128 v0 shapeCasts_S5000x128_S5000x128)
            (broadcastTo S5000x128 (shapeCast S5000x1 v2 shapeCasts_S5000x1_S5000x1) broadcasts_S5000x1_S5000x128)) bitsLt_bf16_f32)
          (truncf .bf16 (shapeCast S128x128 v9 shapeCasts_S128x128_S128x128) bitsLt_bf16_f32)
          (constant S5000x128 .f32 0x00000000#32))
        (matmul dot_S5000x128_S128x128_S5000x128_1_0_0_1_n_n none
          (truncf .bf16 v6 bitsLt_bf16_f32)
          (truncf .bf16 (shapeCast S128x128 v12 shapeCasts_S128x128_S128x128) bitsLt_bf16_f32)
          (constant S5000x128 .f32 0x00000000#32)))
      (broadcastTo S5000x128 (shapeCast S1x128 v18 shapeCasts_S1x128_S1x128) broadcasts_S1x128_S5000x128))
    (broadcast S5000x128 (Scalar.ofBits .f32 0x00000000#32))

/-- Entry (r, o) of the rectified block is the rectified pre-activation of row r at o. -/
theorem act_apply (r : Fin 5000) (o : Fin 128) : act v0 v2 v6 v9 v12 v18 (ix2 r o) = rect (zrow v0 v2 v6 v9 v12 v18 r) o := by
  unfold act
  rw [shapeCast_self, shapeCast_self, shapeCast_self, shapeCast_self, shapeCast_self]
  have h1 : matmul dot_S5000x128_S128x128_S5000x128_1_0_0_1_n_n none
      (truncf .bf16 (mulf v0 (broadcastTo S5000x128 v2 broadcasts_S5000x1_S5000x128)) bitsLt_bf16_f32)
      (truncf .bf16 v9 bitsLt_bf16_f32) (constant S5000x128 .f32 0x00000000#32) (ix2 r o)
        = ∑ k : Fin 128, (v0 (ix2 r k) * v2 (ix2 r (0 : Fin 1))) * v9 (ix2 k o) :=
    (Cert.LibPlainDot.matmul_zero_apply dot_S5000x128_S128x128_S5000x128_1_0_0_1_n_n rfl rfl rfl rfl rfl rfl none _ _ r o).trans
      (Finset.sum_congr rfl fun k _ => congrArg (fun z => v0 (ix2 r k) * z * v9 (ix2 k o))
        (Cert.LibKeepdims.broadcastTo_a1_ab_apply v2 broadcasts_S5000x1_S5000x128 r k))
  have h2 : matmul dot_S5000x128_S128x128_S5000x128_1_0_0_1_n_n none (truncf .bf16 v6 bitsLt_bf16_f32)
      (truncf .bf16 v12 bitsLt_bf16_f32) (constant S5000x128 .f32 0x00000000#32) (ix2 r o)
        = ∑ k : Fin 128, v6 (ix2 r k) * v12 (ix2 k o) :=
    Cert.LibPlainDot.matmul_zero_apply dot_S5000x128_S128x128_S5000x128_1_0_0_1_n_n rfl rfl rfl rfl rfl rfl none _ _ r o
  have h3 : broadcastTo S5000x128 v18 broadcasts_S1x128_S5000x128 (ix2 r o) = v18 (ix2 (0 : Fin 1) o) :=
    broadcastTo_1b_ab_apply v18 broadcasts_S1x128_S5000x128 r o
  show max ((matmul dot_S5000x128_S128x128_S5000x128_1_0_0_1_n_n none
          (truncf .bf16 (mulf v0 (broadcastTo S5000x128 v2 broadcasts_S5000x1_S5000x128)) bitsLt_bf16_f32)
          (truncf .bf16 v9 bitsLt_bf16_f32) (constant S5000x128 .f32 0x00000000#32) (ix2 r o)
        + matmul dot_S5000x128_S128x128_S5000x128_1_0_0_1_n_n none (truncf .bf16 v6 bitsLt_bf16_f32)
          (truncf .bf16 v12 bitsLt_bf16_f32) (constant S5000x128 .f32 0x00000000#32) (ix2 r o))
        + broadcastTo S5000x128 v18 broadcasts_S1x128_S5000x128 (ix2 r o)) (Ideal.ofBits .f32 0x00000000#32) = _
  rw [h1, h2, h3]
  rfl

/-- The sum of row r of a block: the lane reduction with the zero accumulator. -/
theorem rowSum_apply (x : FVec Ideal S5000x128 .f32) (r : Fin 5000) :
    multiReduction .add [1] S5000 x 0x00000000#32 reduces_S5000x128_S5000 (.inl rfl) rfl (ix1 r) = ∑ o : Fin 128, x (ix2 r o) :=
  Cert.LibRowReduce.multiReduction_add_row x 0x00000000#32 reduces_S5000x128_S5000 _ _ r

/-- The mean of row r of the rectified block, spread back over the row. -/
theorem mean_apply (x : FVec Ideal S5000x128 .f32) (r : Fin 5000) (o : Fin 128) :
    broadcastTo S5000x128 (divf (shapeCast S5000x1 (multiReduction .add [1] S5000 x 0x00000000#32 reduces_S5000x128_S5000 (.inl rfl) rfl)
        shapeCasts_S5000_S5000x1) (broadcast S5000x1 (Scalar.ofBits .f32 0x43000000#32))) broadcasts_S5000x1_S5000x128 (ix2 r o)
      = mean (fun j => x (ix2 r j)) := by
  rw [Cert.LibKeepdims.broadcastTo_a1_ab_apply]
  show Ideal.div (shapeCast S5000x1 (multiReduction .add [1] S5000 x 0x00000000#32 reduces_S5000x128_S5000 (.inl rfl) rfl)
      shapeCasts_S5000_S5000x1 (ix2 r (0 : Fin 1))) (Ideal.ofBits .f32 0x43000000#32) = _
  rw [Cert.LibKeepdims.shapeCast_a_a1_apply]
  exact congrArg (fun s => Ideal.div s (Ideal.ofBits .f32 0x43000000#32)) (rowSum_apply x r)

/-- The centred rectified row: the first payload. -/
theorem pay2_apply (r : Fin 5000) (o : Fin 128) :
    k0_pay2 (F := Ideal) v0 v2 v6 v9 v12 v18 (ix2 r o) = centred (rect (zrow v0 v2 v6 v9 v12 v18 r)) o := by
  show act v0 v2 v6 v9 v12 v18 (ix2 r o)
      - broadcastTo S5000x128 (divf (shapeCast S5000x1 (multiReduction .add [1] S5000 (act v0 v2 v6 v9 v12 v18) 0x00000000#32
          reduces_S5000x128_S5000 (.inl rfl) rfl) shapeCasts_S5000_S5000x1) (broadcast S5000x1 (Scalar.ofBits .f32 0x43000000#32)))
          broadcasts_S5000x1_S5000x128 (ix2 r o) = _
  rw [mean_apply, act_apply]
  simp only [act_apply]
  rfl

/-- The reciprocal standard deviation of row r, spread over the row: the second payload. -/
theorem pay3_apply (r : Fin 5000) (o : Fin 128) :
    k0_pay3 (F := Ideal) v0 v2 v6 v9 v12 v18 (ix2 r o)
      = Ideal.rsqrt (mean (fun j => centred (rect (zrow v0 v2 v6 v9 v12 v18 r)) j * centred (rect (zrow v0 v2 v6 v9 v12 v18 r)) j)
          + Ideal.ofBits .f32 0x3727C5AC#32) := by
  show broadcastTo S5000x128 (rsqrt (addf (divf (shapeCast S5000x1 (multiReduction .add [1] S5000
      (mulf (k0_pay2 (F := Ideal) v0 v2 v6 v9 v12 v18) (k0_pay2 (F := Ideal) v0 v2 v6 v9 v12 v18)) 0x00000000#32
      reduces_S5000x128_S5000 (.inl rfl) rfl) shapeCasts_S5000_S5000x1) (broadcast S5000x1 (Scalar.ofBits .f32 0x43000000#32)))
      (broadcast S5000x1 (Scalar.ofBits .f32 0x3727C5AC#32)))) broadcasts_S5000x1_S5000x128 (ix2 r o) = _
  rw [Cert.LibKeepdims.broadcastTo_a1_ab_apply]
  show Ideal.rsqrt (Ideal.div (shapeCast S5000x1 (multiReduction .add [1] S5000
      (mulf (k0_pay2 (F := Ideal) v0 v2 v6 v9 v12 v18) (k0_pay2 (F := Ideal) v0 v2 v6 v9 v12 v18)) 0x00000000#32
      reduces_S5000x128_S5000 (.inl rfl) rfl) shapeCasts_S5000_S5000x1 (ix2 r (0 : Fin 1))) (Ideal.ofBits .f32 0x43000000#32)
      + Ideal.ofBits .f32 0x3727C5AC#32) = _
  rw [Cert.LibKeepdims.shapeCast_a_a1_apply]
  refine congrArg (fun s => Ideal.rsqrt (Ideal.div s (Ideal.ofBits .f32 0x43000000#32) + Ideal.ofBits .f32 0x3727C5AC#32)) ?_
  refine (rowSum_apply _ r).trans (Finset.sum_congr rfl fun j _ => ?_)
  show k0_pay2 (F := Ideal) v0 v2 v6 v9 v12 v18 (ix2 r j) * k0_pay2 (F := Ideal) v0 v2 v6 v9 v12 v18 (ix2 r j) = _
  rw [pay2_apply]

/-- WHAT THE BODY STORES at (r, o): the layer's output row of the row's data, scaled by γ and shifted by β. -/
theorem pay1_apply (r : Fin 5000) (o : Fin 128) :
    k0_pay1 (F := Ideal) (k0_pay2 (F := Ideal) v0 v2 v6 v9 v12 v18) (k0_pay3 (F := Ideal) v0 v2 v6 v9 v12 v18) v40 v44 (ix2 r o)
      = rowMul (fun k => v0 (ix2 r k)) (fun k => v6 (ix2 r k)) (v2 (ix2 r (0 : Fin 1))) (fun k o => v9 (ix2 k o)) (fun k o => v12 (ix2 k o))
          (fun o => v18 (ix2 (0 : Fin 1) o)) (fun o => v40 (ix2 (0 : Fin 1) o)) (fun o => v44 (ix2 (0 : Fin 1) o)) o := by
  show k0_pay2 (F := Ideal) v0 v2 v6 v9 v12 v18 (ix2 r o) * k0_pay3 (F := Ideal) v0 v2 v6 v9 v12 v18 (ix2 r o)
        * broadcastTo S5000x128 (shapeCast S1x128 v40 shapeCasts_S1x128_S1x128) broadcasts_S1x128_S5000x128 (ix2 r o)
      + broadcastTo S5000x128 (shapeCast S1x128 v44 shapeCasts_S1x128_S1x128) broadcasts_S1x128_S5000x128 (ix2 r o) = _
  rw [shapeCast_self, shapeCast_self, broadcastTo_1b_ab_apply, broadcastTo_1b_ab_apply, pay2_apply, pay3_apply]
  rfl

end Cert.KernelIdeal.BlockRows0

end
-- ==== Proof.LayerArr.lean ====
/-
  One layer as ONE function of whole arrays: entry (p, o) of the result is the layer's output row of node p — the row of
  the aggregate, the node's own row, the node's reciprocal degree, and the layer's weights — at feature o. The kernel's
  blocks are restrictions of this one function to 5000 consecutive rows.
-/
import proofs.«100400_j1142461300900_2_alg».proof.Proof.SageRow

noncomputable section

namespace Cert.SageRow

open Idealize.ShloMosaic Idealize.ShloMosaic.ValueIdx

/-- Rows computed from pointwise equal data are equal. -/
theorem rowMul_congr {a a' h h' : Fin 128 → EReal} {s s' : EReal} {Wl Wl' Wr Wr' : Fin 128 → Fin 128 → EReal}
    {b b' g g' be be' : Fin 128 → EReal}
    (ha : ∀ k, a k = a' k) (hh : ∀ k, h k = h' k) (hs : s = s') (hWl : ∀ k o, Wl k o = Wl' k o) (hWr : ∀ k o, Wr k o = Wr' k o)
    (hb : ∀ o, b o = b' o) (hg : ∀ o, g o = g' o) (hbe : ∀ o, be o = be' o) (o : Fin 128) :
    rowMul a h s Wl Wr b g be o = rowMul a' h' s' Wl' Wr' b' g' be' o := by
  have e1 : a = a' := funext ha
  have e2 : h = h' := funext hh
  have e3 : Wl = Wl' := funext fun k => funext (hWl k)
  have e4 : Wr = Wr' := funext fun k => funext (hWr k)
  have e5 : b = b' := funext hb
  have e6 : g = g' := funext hg
  have e7 : be = be' := funext hbe
  subst e1 e2 hs e3 e4 e5 e6 e7
  rfl

/-- The kernel's layer over whole arrays: A the aggregate, H the features, S the reciprocal degrees as a column, Wl and Wr
    the (already transposed) weights, b, g, be the bias, scale and shift as one-row matrices. -/
def layerMul (A H : (⟨2, ![50000, 128]⟩ : Shape).Idx → EReal) (S : (⟨2, ![50000, 1]⟩ : Shape).Idx → EReal)
    (Wl Wr : (⟨2, ![128, 128]⟩ : Shape).Idx → EReal) (b g be : (⟨2, ![1, 128]⟩ : Shape).Idx → EReal) :
    (⟨2, ![50000, 128]⟩ : Shape).Idx → EReal :=
  fun i => rowMul (fun k => A (ix2 (i 0) k)) (fun k => H (ix2 (i 0) k)) (S (ix2 (i 0) (0 : Fin 1)))
    (fun k o => Wl (ix2 k o)) (fun k o => Wr (ix2 k o)) (fun o => b (ix2 (0 : Fin 1) o)) (fun o => g (ix2 (0 : Fin 1) o))
    (fun o => be (ix2 (0 : Fin 1) o)) (i 1)

/-- The layer at (p, o), the coordinates named. -/
theorem layerMul_apply (A H : (⟨2, ![50000, 128]⟩ : Shape).Idx → EReal) (S : (⟨2, ![50000, 1]⟩ : Shape).Idx → EReal)
    (Wl Wr : (⟨2, ![128, 128]⟩ : Shape).Idx → EReal) (b g be : (⟨2, ![1, 128]⟩ : Shape).Idx → EReal) (p : Fin 50000) (o : Fin 128) :
    layerMul A H S Wl Wr b g be (ix2 p o)
      = rowMul (fun k => A (ix2 p k)) (fun k => H (ix2 p k)) (S (ix2 p (0 : Fin 1)))
          (fun k o => Wl (ix2 k o)) (fun k o => Wr (ix2 k o)) (fun o => b (ix2 (0 : Fin 1) o)) (fun o => g (ix2 (0 : Fin 1) o))
          (fun o => be (ix2 (0 : Fin 1) o)) o := rfl

end Cert.SageRow

end
-- ==== Proof.Region0.lean ====
/-
  From blocks to the array, for the first launch of the layer kernel.

  The launch runs ten grid points; point t stages rows 5000·t … 5000·t + 4999 of the aggregate, of the features and of the
  reciprocal-degree column, and the two weight matrices and three parameter rows whole, and writes back rows
  5000·t … 5000·t + 4999 of the result. What the body stores at block entry (r, o) is the layer's output row of row
  5000·t + r (the block-row lemma), so each written block is a block of ONE function of the arrays the launch finds
  (`SageRow.layerMul`), and the ten blocks cover the 50000 rows: after the launch the result array IS that function.
  Everything is stated at the launch's entry contents V as a parameter.
-/
import proofs.«100400_j1142461300900_2_alg».proof.Proof.Gen.KernelIdeal.Frame
import proofs.«100400_j1142461300900_2_alg».proof.Proof.BlockRows0
import proofs.«100400_j1142461300900_2_alg».proof.Proof.LayerArr
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.SageRow

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds: the result array's contents after the launch. -/
def G (c : Dev nD) : S50000x128.Idx → EReal :=
  layerMul (V c main_v37) (V c main_arg0) (V c main_v12) (V c main_v15) (V c main_v18) (V c main_v21) (V c main_v24) (V c main_v27)

/-- The printed index maps, decided over the grid: the three row-blocked inputs move with the output's row block, the
    weights and parameter rows stay at block 0, and the output's row block is the point's number. -/
theorem idx_facts : ∀ t : Fin cfg0.N,
      win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) ≤ 9 ∧ win0_8.index t (1 : Fin 2) = 0 :=
  (by decide +kernel : ∀ t : Fin grid0.N, _)

/-- Every row block is SOME point's. -/
theorem idx_onto : ∀ q : Fin 10, ∃ t : Fin cfg0.N, win0_8.index t = ![q.val, 0] :=
  (by decide +kernel : ∀ q : Fin 10, ∃ t : Fin grid0.N, win0_8.index t = ![q.val, 0])

set_option maxHeartbeats 1000000 in
/-- WHAT POINT t WRITES BACK is block t of the layer of the arrays the launch finds. -/
theorem flushed_eq (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61, e70, e71, e80, e81⟩ := idx_facts t
  funext j
  obtain ⟨r, o, rfl⟩ : ∃ (r : Fin 5000) (o : Fin 128), j = ix2 r o := ⟨j 0, j 1, eq_ix2 j⟩
  refine (Cert.KernelIdeal.BlockRows0.pay1_apply (iblk0 V c 0 t) (iblk0 V c 2 t) (iblk0 V c 1 t) (iblk0 V c 3 t)
    (iblk0 V c 4 t) (iblk0 V c 5 t) (iblk0 V c 6 t) (iblk0 V c 7 t) r o).trans ?_
  have hr := r.isLt
  have ho := o.isLt
  obtain ⟨P, hP⟩ : ∃ P : Fin 50000, P.val = win0_8.index t (0 : Fin 2) * 5000 + r.val := ⟨⟨_, by omega⟩, rfl⟩
  have E8 : ((cfg0.win 8).blk t).view.emb (ix2 r o) = ix2 P o := by
    funext a; apply Fin.ext
    match a with
    | ⟨0, _⟩ => show win0_8.index t (0 : Fin 2) * 5000 + 1 * r.val = P.val; omega
    | ⟨1, _⟩ => show win0_8.index t (1 : Fin 2) * 128 + 1 * o.val = o.val; omega
  have E0 : ∀ k : Fin 128, ((cfg0.win 0).blk t).view.emb (ix2 r k) = ix2 P k := by
    intro k; have hk := k.isLt
    funext a; apply Fin.ext
    match a with
    | ⟨0, _⟩ => show win0_0.index t (0 : Fin 2) * 5000 + 1 * r.val = P.val; omega
    | ⟨1, _⟩ => show win0_0.index t (1 : Fin 2) * 128 + 1 * k.val = k.val; omega
  have E1 : ∀ k : Fin 128, ((cfg0.win 1).blk t).view.emb (ix2 r k) = ix2 P k := by
    intro k; have hk := k.isLt
    funext a; apply Fin.ext
    match a with
    | ⟨0, _⟩ => show win0_1.index t (0 : Fin 2) * 5000 + 1 * r.val = P.val; omega
    | ⟨1, _⟩ => show win0_1.index t (1 : Fin 2) * 128 + 1 * k.val = k.val; omega
  have E2 : ((cfg0.win 2).blk t).view.emb (ix2 r (0 : Fin 1)) = ix2 P (0 : Fin 1) := by
    funext a; apply Fin.ext
    match a with
    | ⟨0, _⟩ => show win0_2.index t (0 : Fin 2) * 5000 + 1 * r.val = P.val; omega
    | ⟨1, _⟩ => show win0_2.index t (1 : Fin 2) * 1 + 1 * (0 : Fin 1).val = (0 : Fin 1).val; omega
  have E3 : ∀ (k o' : Fin 128), ((cfg0.win 3).blk t).view.emb (ix2 k o') = ix2 k o' := by
    intro k o'; have hk := k.isLt; have ho' := o'.isLt
    funext a; apply Fin.ext
    match a with
    | ⟨0, _⟩ => show win0_3.index t (0 : Fin 2) * 128 + 1 * k.val = k.val; omega
    | ⟨1, _⟩ => show win0_3.index t (1 : Fin 2) * 128 + 1 * o'.val = o'.val; omega
  have E4 : ∀ (k o' : Fin 128), ((cfg0.win 4).blk t).view.emb (ix2 k o') = ix2 k o' := by
    intro k o'; have hk := k.isLt; have ho' := o'.isLt
    funext a; apply Fin.ext
    match a with
    | ⟨0, _⟩ => show win0_4.index t (0 : Fin 2) * 128 + 1 * k.val = k.val; omega
    | ⟨1, _⟩ => show win0_4.index t (1 : Fin 2) * 128 + 1 * o'.val = o'.val; omega
  have E5 : ∀ (o' : Fin 128), ((cfg0.win 5).blk t).view.emb (ix2 (0 : Fin 1) o') = ix2 (0 : Fin 1) o' := by
    intro o'; have ho' := o'.isLt
    funext a; apply Fin.ext
    match a with
    | ⟨0, _⟩ => show win0_5.index t (0 : Fin 2) * 1 + 1 * (0 : Fin 1).val = (0 : Fin 1).val; omega
    | ⟨1, _⟩ => show win0_5.index t (1 : Fin 2) * 128 + 1 * o'.val = o'.val; omega
  have E6 : ∀ (o' : Fin 128), ((cfg0.win 6).blk t).view.emb (ix2 (0 : Fin 1) o') = ix2 (0 : Fin 1) o' := by
    intro o'; have ho' := o'.isLt
    funext a; apply Fin.ext
    match a with
    | ⟨0, _⟩ => show win0_6.index t (0 : Fin 2) * 1 + 1 * (0 : Fin 1).val = (0 : Fin 1).val; omega
    | ⟨1, _⟩ => show win0_6.index t (1 : Fin 2) * 128 + 1 * o'.val = o'.val; omega
  have E7 : ∀ (o' : Fin 128), ((cfg0.win 7).blk t).view.emb (ix2 (0 : Fin 1) o') = ix2 (0 : Fin 1) o' := by
    intro o'; have ho' := o'.isLt
    funext a; apply Fin.ext
    match a with
    | ⟨0, _⟩ => show win0_7.index t (0 : Fin 2) * 1 + 1 * (0 : Fin 1).val = (0 : Fin 1).val; omega
    | ⟨1, _⟩ => show win0_7.index t (1 : Fin 2) * 128 + 1 * o'.val = o'.val; omega
  show rowMul (fun k => V c main_v37 (((cfg0.win 0).blk t).view.emb (ix2 r k)))
      (fun k => V c main_arg0 (((cfg0.win 1).blk t).view.emb (ix2 r k)))
      (V c main_v12 (((cfg0.win 2).blk t).view.emb (ix2 r (0 : Fin 1))))
      (fun k o' => V c main_v15 (((cfg0.win 3).blk t).view.emb (ix2 k o')))
      (fun k o' => V c main_v18 (((cfg0.win 4).blk t).view.emb (ix2 k o')))
      (fun o' => V c main_v21 (((cfg0.win 5).blk t).view.emb (ix2 (0 : Fin 1) o')))
      (fun o' => V c main_v24 (((cfg0.win 6).blk t).view.emb (ix2 (0 : Fin 1) o')))
      (fun o' => V c main_v27 (((cfg0.win 7).blk t).view.emb (ix2 (0 : Fin 1) o'))) o
    = G V c (((cfg0.win 8).blk t).view.emb (ix2 r o))
  refine (rowMul_congr (fun k => congrArg (V c main_v37) (E0 k)) (fun k => congrArg (V c main_arg0) (E1 k))
    (congrArg (V c main_v12) E2) (fun k o' => congrArg (V c main_v15) (E3 k o')) (fun k o' => congrArg (V c main_v18) (E4 k o'))
    (fun o' => congrArg (V c main_v21) (E5 o')) (fun o' => congrArg (V c main_v24) (E6 o')) (fun o' => congrArg (V c main_v27) (E7 o')) o).trans ?_
  rw [E8]
  exact (layerMul_apply _ _ _ _ _ _ _ _ P o).symm

/-- An index of the result array is in point t's block iff each coordinate is in the block's range on its axis. -/
theorem mem_blk (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v38).slice (win0_8.rect t)).set ↔ _
  rw [View.set_slice_whole, Rect.mem_set_unit]
  exact Iff.rfl

/-- The ten written blocks cover the result array: row p is in the block of point p / 5000. -/
theorem cover (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := idx_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

/-- THE RESULT ARRAY after the launch is the layer of the arrays the launch found. -/
theorem arr_final (c : Dev nD) : (dat0 V c).arrAt 8 cfg0.N = G V c :=
  (dat0 V c).arrAt_eq_of_cover 8 (G V c) (fun t _ => flushed_eq V c t) cover

end Cert.KernelIdeal.Region0

end
-- ==== Proof.BlockRows1.lean ====
/-
  What the fused layer kernel's body stores, row by row, on the extended reals (the second launch's text of the body).

  The body holds a block of 5000 rows. For row r it multiplies the aggregated features a = agg[r, ·] by the row's
  reciprocal degree s = inv_deg[r, 0], contracts the result with Wl and the node's own features h = h[r, ·] with Wr (two
  matrix products into zero accumulators; the roundings to bf16 on the way in are the identity on the extended reals),
  adds the bias row, rectifies, and layer-normalises over the 128 features: exactly `SageRow.rowMul` of the row's data. (This
  launch's text keeps the reciprocal standard deviation as a column and spreads it over the row only in the last step.)
  Every step is pointwise in the row except the two products (sums over the contracted coordinate) and the two row sums.
-/
import proofs.«100400_j1142461300900_2_alg».proof.Proof.Gen.KernelIdeal.Skeleton
import proofs.«100400_j1142461300900_2_alg».proof.Proof.SageRow
import proofs.«100400_j1142461300900_2_alg».proof.Proof.LibKeepdims
import proofs.«100400_j1142461300900_2_alg».proof.Proof.LibPlainDot
import proofs.«100400_j1142461300900_2_alg».proof.Proof.LibRowReduce
import Idealize.ShloMosaic.Lib.ValueLayout
import Idealize.ShloMosaic.Lib.Pipeline.Value

noncomputable section

open scoped BigOperators

namespace Cert.KernelIdeal.BlockRows1

open Idealize.ShloMosaic Idealize.ShloMosaic.ValueIdx Cert.KernelIdeal Cert.KernelIdeal.Gen Cert.SageRow

variable (v0 : FVec Ideal S5000x128 .f32) (v2 : FVec Ideal S5000x1 .f32) (v6 : FVec Ideal S5000x128 .f32)
  (v9 v12 : FVec Ideal S128x128 .f32) (v18 v40 v44 : FVec Ideal S1x128 .f32)

/-- The row's pre-activation, as the kernel spells it, from the block's loads. -/
abbrev zrow (r : Fin 5000) : Fin 128 → EReal :=
  preMul (fun k => v0 (ix2 r k)) (fun k => v6 (ix2 r k)) (v2 (ix2 r (0 : Fin 1))) (fun k o => v9 (ix2 k o)) (fun k o => v12 (ix2 k o))
    (fun o => v18 (ix2 (0 : Fin 1) o))

/-- The block after the two products, the bias and the rectifier. -/
def act : FVec Ideal S5000x128 .f32 :=
  maximumf
    (addf
      (addf
        (matmul dot_S5000x128_S128x128_S5000x128_1_0_0_1_n_n none
          (truncf .bf16 (mulf (shapeCast S5000x128 v0 shapeCasts_S5000x128_S5000x128)
            (broadcastTo S5000x128 (shapeCast S5000x1 v2 shapeCasts_S5000x1_S5000x1) broadcasts_S5000x1_S5000x128)) bitsLt_bf16_f32)
          (truncf .bf16 (shapeCast S128x128 v9 shapeCasts_S128x128_S128x128) bitsLt_bf16_f32)
          (constant S5000x128 .f32 0x00000000#32))
        (matmul dot_S5000x128_S128x128_S5000x128_1_0_0_1_n_n none
          (truncf .bf16 (shapeCast S5000x128 v6 shapeCasts_S5000x128_S5000x128) bitsLt_bf16_f32)
          (truncf .bf16 (shapeCast S128x128 v12 shapeCasts_S128x128_S128x128) bitsLt_bf16_f32)
          (constant S5000x128 .f32 0x00000000#32)))
      (broadcastTo S5000x128 (shapeCast S1x128 v18 shapeCasts_S1x128_S1x128) broadcasts_S1x128_S5000x128))
    (broadcast S5000x128 (Scalar.ofBits .f32 0x00000000#32))

/-- Entry (r, o) of the rectified block is the rectified pre-activation of row r at o. -/
theorem act_apply (r : Fin 5000) (o : Fin 128) : act v0 v2 v6 v9 v12 v18 (ix2 r o) = rect (zrow v0 v2 v6 v9 v12 v18 r) o := by
  unfold act
  rw [shapeCast_self, shapeCast_self, shapeCast_self, shapeCast_self, shapeCast_self, shapeCast_self]
  have h1 : matmul dot_S5000x128_S128x128_S5000x128_1_0_0_1_n_n none
      (truncf .bf16 (mulf v0 (broadcastTo S5000x128 v2 broadcasts_S5000x1_S5000x128)) bitsLt_bf16_f32)
      (truncf .bf16 v9 bitsLt_bf16_f32) (constant S5000x128 .f32 0x00000000#32) (ix2 r o)
        = ∑ k : Fin 128, (v0 (ix2 r k) * v2 (ix2 r (0 : Fin 1))) * v9 (ix2 k o) :=
    (Cert.LibPlainDot.matmul_zero_apply dot_S5000x128_S128x128_S5000x128_1_0_0_1_n_n rfl rfl rfl rfl rfl rfl none _ _ r o).trans
      (Finset.sum_congr rfl fun k _ => congrArg (fun z => v0 (ix2 r k) * z * v9 (ix2 k o))
        (Cert.LibKeepdims.broadcastTo_a1_ab_apply v2 broadcasts_S5000x1_S5000x128 r k))
  have h2 : matmul dot_S5000x128_S128x128_S5000x128_1_0_0_1_n_n none (truncf .bf16 v6 bitsLt_bf16_f32)
      (truncf .bf16 v12 bitsLt_bf16_f32) (constant S5000x128 .f32 0x00000000#32) (ix2 r o)
        = ∑ k : Fin 128, v6 (ix2 r k) * v12 (ix2 k o) :=
    Cert.LibPlainDot.matmul_zero_apply dot_S5000x128_S128x128_S5000x128_1_0_0_1_n_n rfl rfl rfl rfl rfl rfl none _ _ r o
  have h3 : broadcastTo S5000x128 v18 broadcasts_S1x128_S5000x128 (ix2 r o) = v18 (ix2 (0 : Fin 1) o) :=
    broadcastTo_1b_ab_apply v18 broadcasts_S1x128_S5000x128 r o
  show max ((matmul dot_S5000x128_S128x128_S5000x128_1_0_0_1_n_n none
          (truncf .bf16 (mulf v0 (broadcastTo S5000x128 v2 broadcasts_S5000x1_S5000x128)) bitsLt_bf16_f32)
          (truncf .bf16 v9 bitsLt_bf16_f32) (constant S5000x128 .f32 0x00000000#32) (ix2 r o)
        + matmul dot_S5000x128_S128x128_S5000x128_1_0_0_1_n_n none (truncf .bf16 v6 bitsLt_bf16_f32)
          (truncf .bf16 v12 bitsLt_bf16_f32) (constant S5000x128 .f32 0x00000000#32) (ix2 r o))
        + broadcastTo S5000x128 v18 broadcasts_S1x128_S5000x128 (ix2 r o)) (Ideal.ofBits .f32 0x00000000#32) = _
  rw [h1, h2, h3]
  rfl

/-- The sum of row r of a block: the lane reduction with the zero accumulator. -/
theorem rowSum_apply (x : FVec Ideal S5000x128 .f32) (r : Fin 5000) :
    multiReduction .add [1] S5000 x 0x00000000#32 reduces_S5000x128_S5000 (.inl rfl) rfl (ix1 r) = ∑ o : Fin 128, x (ix2 r o) :=
  Cert.LibRowReduce.multiReduction_add_row x 0x00000000#32 reduces_S5000x128_S5000 _ _ r

/-- The mean of row r of the rectified block, spread back over the row. -/
theorem mean_apply (x : FVec Ideal S5000x128 .f32) (r : Fin 5000) (o : Fin 128) :
    broadcastTo S5000x128 (divf (shapeCast S5000x1 (multiReduction .add [1] S5000 x 0x00000000#32 reduces_S5000x128_S5000 (.inl rfl) rfl)
        shapeCasts_S5000_S5000x1) (broadcast S5000x1 (Scalar.ofBits .f32 0x43000000#32))) broadcasts_S5000x1_S5000x128 (ix2 r o)
      = mean (fun j => x (ix2 r j)) := by
  rw [Cert.LibKeepdims.broadcastTo_a1_ab_apply]
  show Ideal.div (shapeCast S5000x1 (multiReduction .add [1] S5000 x 0x00000000#32 reduces_S5000x128_S5000 (.inl rfl) rfl)
      shapeCasts_S5000_S5000x1 (ix2 r (0 : Fin 1))) (Ideal.ofBits .f32 0x43000000#32) = _
  rw [Cert.LibKeepdims.shapeCast_a_a1_apply]
  exact congrArg (fun s => Ideal.div s (Ideal.ofBits .f32 0x43000000#32)) (rowSum_apply x r)

/-- The centred rectified row: the first payload. -/
theorem pay2_apply (r : Fin 5000) (o : Fin 128) :
    k1_pay2 (F := Ideal) v0 v2 v6 v9 v12 v18 (ix2 r o) = centred (rect (zrow v0 v2 v6 v9 v12 v18 r)) o := by
  show act v0 v2 v6 v9 v12 v18 (ix2 r o)
      - broadcastTo S5000x128 (divf (shapeCast S5000x1 (multiReduction .add [1] S5000 (act v0 v2 v6 v9 v12 v18) 0x00000000#32
          reduces_S5000x128_S5000 (.inl rfl) rfl) shapeCasts_S5000_S5000x1) (broadcast S5000x1 (Scalar.ofBits .f32 0x43000000#32)))
          broadcasts_S5000x1_S5000x128 (ix2 r o) = _
  rw [mean_apply, act_apply]
  simp only [act_apply]
  rfl

/-- The reciprocal standard deviation of row r, as the column's entry: the second payload. -/
theorem pay3_apply (r : Fin 5000) :
    k1_pay3 (F := Ideal) v0 v2 v6 v9 v12 v18 (ix2 r (0 : Fin 1))
      = Ideal.rsqrt (mean (fun j => centred (rect (zrow v0 v2 v6 v9 v12 v18 r)) j * centred (rect (zrow v0 v2 v6 v9 v12 v18 r)) j)
          + Ideal.ofBits .f32 0x3727C5AC#32) := by
  show Ideal.rsqrt (Ideal.div (shapeCast S5000x1 (multiReduction .add [1] S5000
      (mulf (k1_pay2 (F := Ideal) v0 v2 v6 v9 v12 v18) (k1_pay2 (F := Ideal) v0 v2 v6 v9 v12 v18)) 0x00000000#32
      reduces_S5000x128_S5000 (.inl rfl) rfl) shapeCasts_S5000_S5000x1 (ix2 r (0 : Fin 1))) (Ideal.ofBits .f32 0x43000000#32)
      + Ideal.ofBits .f32 0x3727C5AC#32) = _
  rw [Cert.LibKeepdims.shapeCast_a_a1_apply]
  refine congrArg (fun s => Ideal.rsqrt (Ideal.div s (Ideal.ofBits .f32 0x43000000#32) + Ideal.ofBits .f32 0x3727C5AC#32)) ?_
  refine (rowSum_apply _ r).trans (Finset.sum_congr rfl fun j _ => ?_)
  show k1_pay2 (F := Ideal) v0 v2 v6 v9 v12 v18 (ix2 r j) * k1_pay2 (F := Ideal) v0 v2 v6 v9 v12 v18 (ix2 r j) = _
  rw [pay2_apply]

/-- WHAT THE BODY STORES at (r, o): the layer's output row of the row's data, scaled by γ and shifted by β. -/
theorem pay1_apply (r : Fin 5000) (o : Fin 128) :
    k1_pay1 (F := Ideal) (k1_pay2 (F := Ideal) v0 v2 v6 v9 v12 v18) (k1_pay3 (F := Ideal) v0 v2 v6 v9 v12 v18) v40 v44 (ix2 r o)
      = rowMul (fun k => v0 (ix2 r k)) (fun k => v6 (ix2 r k)) (v2 (ix2 r (0 : Fin 1))) (fun k o => v9 (ix2 k o)) (fun k o => v12 (ix2 k o))
          (fun o => v18 (ix2 (0 : Fin 1) o)) (fun o => v40 (ix2 (0 : Fin 1) o)) (fun o => v44 (ix2 (0 : Fin 1) o)) o := by
  show k1_pay2 (F := Ideal) v0 v2 v6 v9 v12 v18 (ix2 r o)
          * broadcastTo S5000x128 (k1_pay3 (F := Ideal) v0 v2 v6 v9 v12 v18) broadcasts_S5000x1_S5000x128 (ix2 r o)
        * broadcastTo S5000x128 (shapeCast S1x128 v40 shapeCasts_S1x128_S1x128) broadcasts_S1x128_S5000x128 (ix2 r o)
      + broadcastTo S5000x128 (shapeCast S1x128 v44 shapeCasts_S1x128_S1x128) broadcasts_S1x128_S5000x128 (ix2 r o) = _
  rw [shapeCast_self, shapeCast_self, broadcastTo_1b_ab_apply, broadcastTo_1b_ab_apply, Cert.LibKeepdims.broadcastTo_a1_ab_apply,
    pay2_apply, pay3_apply]
  rfl

end Cert.KernelIdeal.BlockRows1

end
-- ==== Proof.Region1.lean ====
/-
  From blocks to the array, for the second launch of the layer kernel.

  The launch runs ten grid points; point t stages rows 5000·t … 5000·t + 4999 of the aggregate, of the features and of the
  reciprocal-degree column, and the two weight matrices and three parameter rows whole, and writes back rows
  5000·t … 5000·t + 4999 of the result. What the body stores at block entry (r, o) is the layer's output row of row
  5000·t + r (the block-row lemma), so each written block is a block of ONE function of the arrays the launch finds
  (`SageRow.layerMul`), and the ten blocks cover the 50000 rows: after the launch the result array IS that function.
  Everything is stated at the launch's entry contents V as a parameter.
-/
import proofs.«100400_j1142461300900_2_alg».proof.Proof.Gen.KernelIdeal.Frame
import proofs.«100400_j1142461300900_2_alg».proof.Proof.BlockRows1
import proofs.«100400_j1142461300900_2_alg».proof.Proof.LayerArr
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.SageRow

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds: the result array's contents after the launch. -/
def G (c : Dev nD) : S50000x128.Idx → EReal :=
  layerMul (V c main_v63) (V c main_v38) (V c main_v12) (V c main_v41) (V c main_v44) (V c main_v47) (V c main_v50) (V c main_v53)

/-- The printed index maps, decided over the grid: the three row-blocked inputs move with the output's row block, the
    weights and parameter rows stay at block 0, and the output's row block is the point's number. -/
theorem idx_facts : ∀ t : Fin cfg1.N,
      win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) ≤ 9 ∧ win1_8.index t (1 : Fin 2) = 0 :=
  (by decide +kernel : ∀ t : Fin grid1.N, _)

/-- Every row block is SOME point's. -/
theorem idx_onto : ∀ q : Fin 10, ∃ t : Fin cfg1.N, win1_8.index t = ![q.val, 0] :=
  (by decide +kernel : ∀ q : Fin 10, ∃ t : Fin grid1.N, win1_8.index t = ![q.val, 0])

set_option maxHeartbeats 1000000 in
/-- WHAT POINT t WRITES BACK is block t of the layer of the arrays the launch finds. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61, e70, e71, e80, e81⟩ := idx_facts t
  funext j
  obtain ⟨r, o, rfl⟩ : ∃ (r : Fin 5000) (o : Fin 128), j = ix2 r o := ⟨j 0, j 1, eq_ix2 j⟩
  refine (Cert.KernelIdeal.BlockRows1.pay1_apply (iblk1 V c 0 t) (iblk1 V c 2 t) (iblk1 V c 1 t) (iblk1 V c 3 t)
    (iblk1 V c 4 t) (iblk1 V c 5 t) (iblk1 V c 6 t) (iblk1 V c 7 t) r o).trans ?_
  have hr := r.isLt
  have ho := o.isLt
  obtain ⟨P, hP⟩ : ∃ P : Fin 50000, P.val = win1_8.index t (0 : Fin 2) * 5000 + r.val := ⟨⟨_, by omega⟩, rfl⟩
  have E8 : ((cfg1.win 8).blk t).view.emb (ix2 r o) = ix2 P o := by
    funext a; apply Fin.ext
    match a with
    | ⟨0, _⟩ => show win1_8.index t (0 : Fin 2) * 5000 + 1 * r.val = P.val; omega
    | ⟨1, _⟩ => show win1_8.index t (1 : Fin 2) * 128 + 1 * o.val = o.val; omega
  have E0 : ∀ k : Fin 128, ((cfg1.win 0).blk t).view.emb (ix2 r k) = ix2 P k := by
    intro k; have hk := k.isLt
    funext a; apply Fin.ext
    match a with
    | ⟨0, _⟩ => show win1_0.index t (0 : Fin 2) * 5000 + 1 * r.val = P.val; omega
    | ⟨1, _⟩ => show win1_0.index t (1 : Fin 2) * 128 + 1 * k.val = k.val; omega
  have E1 : ∀ k : Fin 128, ((cfg1.win 1).blk t).view.emb (ix2 r k) = ix2 P k := by
    intro k; have hk := k.isLt
    funext a; apply Fin.ext
    match a with
    | ⟨0, _⟩ => show win1_1.index t (0 : Fin 2) * 5000 + 1 * r.val = P.val; omega
    | ⟨1, _⟩ => show win1_1.index t (1 : Fin 2) * 128 + 1 * k.val = k.val; omega
  have E2 : ((cfg1.win 2).blk t).view.emb (ix2 r (0 : Fin 1)) = ix2 P (0 : Fin 1) := by
    funext a; apply Fin.ext
    match a with
    | ⟨0, _⟩ => show win1_2.index t (0 : Fin 2) * 5000 + 1 * r.val = P.val; omega
    | ⟨1, _⟩ => show win1_2.index t (1 : Fin 2) * 1 + 1 * (0 : Fin 1).val = (0 : Fin 1).val; omega
  have E3 : ∀ (k o' : Fin 128), ((cfg1.win 3).blk t).view.emb (ix2 k o') = ix2 k o' := by
    intro k o'; have hk := k.isLt; have ho' := o'.isLt
    funext a; apply Fin.ext
    match a with
    | ⟨0, _⟩ => show win1_3.index t (0 : Fin 2) * 128 + 1 * k.val = k.val; omega
    | ⟨1, _⟩ => show win1_3.index t (1 : Fin 2) * 128 + 1 * o'.val = o'.val; omega
  have E4 : ∀ (k o' : Fin 128), ((cfg1.win 4).blk t).view.emb (ix2 k o') = ix2 k o' := by
    intro k o'; have hk := k.isLt; have ho' := o'.isLt
    funext a; apply Fin.ext
    match a with
    | ⟨0, _⟩ => show win1_4.index t (0 : Fin 2) * 128 + 1 * k.val = k.val; omega
    | ⟨1, _⟩ => show win1_4.index t (1 : Fin 2) * 128 + 1 * o'.val = o'.val; omega
  have E5 : ∀ (o' : Fin 128), ((cfg1.win 5).blk t).view.emb (ix2 (0 : Fin 1) o') = ix2 (0 : Fin 1) o' := by
    intro o'; have ho' := o'.isLt
    funext a; apply Fin.ext
    match a with
    | ⟨0, _⟩ => show win1_5.index t (0 : Fin 2) * 1 + 1 * (0 : Fin 1).val = (0 : Fin 1).val; omega
    | ⟨1, _⟩ => show win1_5.index t (1 : Fin 2) * 128 + 1 * o'.val = o'.val; omega
  have E6 : ∀ (o' : Fin 128), ((cfg1.win 6).blk t).view.emb (ix2 (0 : Fin 1) o') = ix2 (0 : Fin 1) o' := by
    intro o'; have ho' := o'.isLt
    funext a; apply Fin.ext
    match a with
    | ⟨0, _⟩ => show win1_6.index t (0 : Fin 2) * 1 + 1 * (0 : Fin 1).val = (0 : Fin 1).val; omega
    | ⟨1, _⟩ => show win1_6.index t (1 : Fin 2) * 128 + 1 * o'.val = o'.val; omega
  have E7 : ∀ (o' : Fin 128), ((cfg1.win 7).blk t).view.emb (ix2 (0 : Fin 1) o') = ix2 (0 : Fin 1) o' := by
    intro o'; have ho' := o'.isLt
    funext a; apply Fin.ext
    match a with
    | ⟨0, _⟩ => show win1_7.index t (0 : Fin 2) * 1 + 1 * (0 : Fin 1).val = (0 : Fin 1).val; omega
    | ⟨1, _⟩ => show win1_7.index t (1 : Fin 2) * 128 + 1 * o'.val = o'.val; omega
  show rowMul (fun k => V c main_v63 (((cfg1.win 0).blk t).view.emb (ix2 r k)))
      (fun k => V c main_v38 (((cfg1.win 1).blk t).view.emb (ix2 r k)))
      (V c main_v12 (((cfg1.win 2).blk t).view.emb (ix2 r (0 : Fin 1))))
      (fun k o' => V c main_v41 (((cfg1.win 3).blk t).view.emb (ix2 k o')))
      (fun k o' => V c main_v44 (((cfg1.win 4).blk t).view.emb (ix2 k o')))
      (fun o' => V c main_v47 (((cfg1.win 5).blk t).view.emb (ix2 (0 : Fin 1) o')))
      (fun o' => V c main_v50 (((cfg1.win 6).blk t).view.emb (ix2 (0 : Fin 1) o')))
      (fun o' => V c main_v53 (((cfg1.win 7).blk t).view.emb (ix2 (0 : Fin 1) o'))) o
    = G V c (((cfg1.win 8).blk t).view.emb (ix2 r o))
  refine (rowMul_congr (fun k => congrArg (V c main_v63) (E0 k)) (fun k => congrArg (V c main_v38) (E1 k))
    (congrArg (V c main_v12) E2) (fun k o' => congrArg (V c main_v41) (E3 k o')) (fun k o' => congrArg (V c main_v44) (E4 k o'))
    (fun o' => congrArg (V c main_v47) (E5 o')) (fun o' => congrArg (V c main_v50) (E6 o')) (fun o' => congrArg (V c main_v53) (E7 o')) o).trans ?_
  rw [E8]
  exact (layerMul_apply _ _ _ _ _ _ _ _ P o).symm

/-- An index of the result array is in point t's block iff each coordinate is in the block's range on its axis. -/
theorem mem_blk (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v64).slice (win1_8.rect t)).set ↔ _
  rw [View.set_slice_whole, Rect.mem_set_unit]
  exact Iff.rfl

/-- The ten written blocks cover the result array: row p is in the block of point p / 5000. -/
theorem cover (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ := idx_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- THE RESULT ARRAY after the launch is the layer of the arrays the launch found. -/
theorem arr_final (c : Dev nD) : (dat1 V c).arrAt 8 cfg1.N = G V c :=
  (dat1 V c).arrAt_eq_of_cover 8 (G V c) (fun t _ => flushed_eq V c t) cover

end Cert.KernelIdeal.Region1

end
-- ==== Proof.KHost.lean ====
/-
  What the kernel's program holds at its two launches, in terms of the argument arrays.

  Before the first launch the host computes, from the edge table, the aggregate of x (source rows gathered and summed into
  destination rows), the reciprocal of the clamped degree as a column, and from the stacked parameters layer 0's
  transposed weights and its bias, scale and shift as one-row matrices. The first launch leaves the layer of those arrays
  in its result. Between the launches the host computes the aggregate of that result — with the SAME edge rows, which it
  computed once — and layer 1's parameters; the reciprocal-degree column is reused. The second launch leaves the layer of
  those in the program's result. The gather, the scatter-adds and the slicing are kept as they are printed: the
  reference applies the very same operations.
-/
import proofs.«100400_j1142461300900_2_alg».proof.Proof.Region0
import proofs.«100400_j1142461300900_2_alg».proof.Proof.Region1
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Idealize.ShloMosaic.Pipeline (Dat)
open Cert.KernelIdeal Cert.KernelIdeal.Gen Cert.SageRow

section Stages

variable {F : FTy → Type} [FloatOps F]

/-- Row k of the edge table as a vector of 800000 node ids (k = 0: sources, k = 1: destinations). -/
def edgeSrc (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
def edgeDst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The source ids as a column, a negative id counted from the end (id + 50000): from the edge row. -/
def srcColOf (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination ids as a column: from the edge row. -/
def dstColOf (d : (⟨S800000, .i32⟩ : BufTy).Contents (Elt F)) : (⟨S800000x1, .i32⟩ : BufTy).Contents (Elt F) :=
  broadcastInDim S800000x1 ![0] bcast_S800000_S800000x1_0 d

/-- The aggregate of h over edge rows s (sources) and d (destinations). -/
def aggRows (h : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstColOf (F := F) d)
    (Host.gather gather_S50000x128_S800000x1_S800000x128_1_0_n_n_0_1_1128 h (srcColOf (F := F) s))

/-- The aggregate of h over the edge table. -/
def aggOf (h : (⟨S50000x128, .f32⟩ : BufTy).Contents (Elt F)) (e : (⟨S2x800000, .i32⟩ : BufTy).Contents (Elt F)) : (⟨S50000x128, .f32⟩ : BufTy).Contents (Elt F) :=
  aggRows h (edgeSrc (F := F) e) (edgeDst (F := F) e)

/-- The degree: each node's number of incoming edges, at least 1. -/
def degOf (e : (⟨S2x800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32))
      (dstColOf (F := F) (edgeDst (F := F) e)) (broadcastInDim S800000 ![] bcast_S_S800000 (constant S_ .f32 0x3F800000#32)))
    (broadcastInDim S50000 ![] bcast_S_S50000 (constant S_ .f32 0x3F800000#32))

/-- The reciprocal degrees, 1 / degree, as a column. -/
def invDeg (e : (⟨S2x800000, .i32⟩ : BufTy).Contents (Elt F)) : (⟨S50000x1, .f32⟩ : BufTy).Contents (Elt F) :=
  shapeCast S50000x1 (Host.divf (broadcastInDim S50000 ![] bcast_S_S50000 (constant S_ .f32 0x3F800000#32)) (degOf (F := F) e))
    shapeCasts_S50000_S50000x1

/-- Slice k of a stacked weight as a matrix, and of a stacked vector as a vector. -/
def mat0 (w : (⟨S2x128x128, .f32⟩ : BufTy).Contents (Elt F)) : (⟨S128x128, .f32⟩ : BufTy).Contents (Elt F) :=
  shapeCast S128x128 (extractStridedSlice S1x128x128 ![0, 0, 0] w slices_S2x128x128_S1x128x128_0_0_0) shapeCasts_S1x128x128_S128x128
def mat1 (w : (⟨S2x128x128, .f32⟩ : BufTy).Contents (Elt F)) : (⟨S128x128, .f32⟩ : BufTy).Contents (Elt F) :=
  shapeCast S128x128 (extractStridedSlice S1x128x128 ![1, 0, 0] w slices_S2x128x128_S1x128x128_1_0_0) shapeCasts_S1x128x128_S128x128
def vec0 (v : (⟨S2x128, .f32⟩ : BufTy).Contents (Elt F)) : (⟨S128, .f32⟩ : BufTy).Contents (Elt F) :=
  shapeCast S128 (extractStridedSlice S1x128 ![0, 0] v slices_S2x128_S1x128_0_0) shapeCasts_S1x128_S128
def vec1 (v : (⟨S2x128, .f32⟩ : BufTy).Contents (Elt F)) : (⟨S128, .f32⟩ : BufTy).Contents (Elt F) :=
  shapeCast S128 (extractStridedSlice S1x128 ![1, 0] v slices_S2x128_S1x128_1_0) shapeCasts_S1x128_S128

/-- A weight transposed, and a [128] vector as a one-row matrix. -/
def wT (w : (⟨S128x128, .f32⟩ : BufTy).Contents (Elt F)) : (⟨S128x128, .f32⟩ : BufTy).Contents (Elt F) :=
  transpose S128x128 [1, 0] w transposes_S128x128_S128x128_1_0
def rowOf (v : (⟨S128, .f32⟩ : BufTy).Contents (Elt F)) : (⟨S1x128, .f32⟩ : BufTy).Contents (Elt F) :=
  shapeCast S1x128 v shapeCasts_S128_S1x128

end Stages

variable (m : (ℓ : Loc nD τ sig) → Buf (Elt Ideal) ℓ) (ρ : Dev nD → PrngReg)

/-! ## At the first launch -/

attribute [local irreducible] Host.scatterAdd Host.gather

theorem V1_v1 (c : Dev nD) : W1 m ρ c (Proc.devRef .tc main_v1) = edgeSrc (F := Ideal) (m ((c : Thread nD τ).loc main_arg1)) := by
  show StableHlo.after hostOps0 (W0 m ρ c) (Proc.devRef .tc main_v1) = _
  after_results_simp <;> rfl
theorem V1_v3 (c : Dev nD) : W1 m ρ c (Proc.devRef .tc main_v3) = edgeDst (F := Ideal) (m ((c : Thread nD τ).loc main_arg1)) := by
  show StableHlo.after hostOps0 (W0 m ρ c) (Proc.devRef .tc main_v3) = _
  after_results_simp <;> rfl
theorem V1_v37 (c : Dev nD) : V1 m ρ c main_v37 = aggOf (F := Ideal) (m ((c : Thread nD τ).loc main_arg0)) (m ((c : Thread nD τ).loc main_arg1)) := by
  show StableHlo.after hostOps0 (W0 m ρ c) (Proc.devRef .tc main_v37) = _
  after_results_simp <;> rfl
theorem V1_arg (c : Dev nD) (k : Fin 7) :
    W1 m ρ c (Proc.devRef .tc (![main_arg0, main_arg1, main_arg2, main_arg3, main_arg4, main_arg5, main_arg6] k))
      = m ((c : Thread nD τ).loc (![main_arg0, main_arg1, main_arg2, main_arg3, main_arg4, main_arg5, main_arg6] k)) := by
  show StableHlo.after hostOps0 (W0 m ρ c) _ = _
  fin_cases k <;> (after_results_simp <;> rfl)
theorem V1_v12 (c : Dev nD) : V1 m ρ c main_v12 = invDeg (F := Ideal) (m ((c : Thread nD τ).loc main_arg1)) := by
  show StableHlo.after hostOps0 (W0 m ρ c) (Proc.devRef .tc main_v12) = _
  after_results_simp <;> rfl
theorem V1_v15 (c : Dev nD) : V1 m ρ c main_v15 = wT (mat0 (F := Ideal) (m ((c : Thread nD τ).loc main_arg2))) := by
  show StableHlo.after hostOps0 (W0 m ρ c) (Proc.devRef .tc main_v15) = _
  after_results_simp <;> rfl
theorem V1_v18 (c : Dev nD) : V1 m ρ c main_v18 = wT (mat0 (F := Ideal) (m ((c : Thread nD τ).loc main_arg4))) := by
  show StableHlo.after hostOps0 (W0 m ρ c) (Proc.devRef .tc main_v18) = _
  after_results_simp <;> rfl
theorem V1_v21 (c : Dev nD) : V1 m ρ c main_v21 = rowOf (vec0 (F := Ideal) (m ((c : Thread nD τ).loc main_arg3))) := by
  show StableHlo.after hostOps0 (W0 m ρ c) (Proc.devRef .tc main_v21) = _
  after_results_simp <;> rfl
theorem V1_v24 (c : Dev nD) : V1 m ρ c main_v24 = rowOf (vec0 (F := Ideal) (m ((c : Thread nD τ).loc main_arg5))) := by
  show StableHlo.after hostOps0 (W0 m ρ c) (Proc.devRef .tc main_v24) = _
  after_results_simp <;> rfl
theorem V1_v27 (c : Dev nD) : V1 m ρ c main_v27 = rowOf (vec0 (F := Ideal) (m ((c : Thread nD τ).loc main_arg6))) := by
  show StableHlo.after hostOps0 (W0 m ρ c) (Proc.devRef .tc main_v27) = _
  after_results_simp <;> rfl

/-! ## After the first launch -/

/-- The first layer of the argument arrays, as the kernel's program computes it. -/
def layer1 (x : (⟨S50000x128, .f32⟩ : BufTy).Contents (Elt Ideal)) (e : (⟨S2x800000, .i32⟩ : BufTy).Contents (Elt Ideal)) (Wl : (⟨S2x128x128, .f32⟩ : BufTy).Contents (Elt Ideal))
    (bl : (⟨S2x128, .f32⟩ : BufTy).Contents (Elt Ideal)) (Wr : (⟨S2x128x128, .f32⟩ : BufTy).Contents (Elt Ideal)) (ga be : (⟨S2x128, .f32⟩ : BufTy).Contents (Elt Ideal)) : (⟨S50000x128, .f32⟩ : BufTy).Contents (Elt Ideal) :=
  layerMul (aggOf (F := Ideal) x e) x (invDeg (F := Ideal) e) (wT (mat0 (F := Ideal) Wl)) (wT (mat0 (F := Ideal) Wr))
    (rowOf (vec0 (F := Ideal) bl)) (rowOf (vec0 (F := Ideal) ga)) (rowOf (vec0 (F := Ideal) be))

/-- The second layer, of the first layer's result. -/
def layer2 (x : (⟨S50000x128, .f32⟩ : BufTy).Contents (Elt Ideal)) (e : (⟨S2x800000, .i32⟩ : BufTy).Contents (Elt Ideal)) (Wl : (⟨S2x128x128, .f32⟩ : BufTy).Contents (Elt Ideal))
    (bl : (⟨S2x128, .f32⟩ : BufTy).Contents (Elt Ideal)) (Wr : (⟨S2x128x128, .f32⟩ : BufTy).Contents (Elt Ideal)) (ga be : (⟨S2x128, .f32⟩ : BufTy).Contents (Elt Ideal)) : (⟨S50000x128, .f32⟩ : BufTy).Contents (Elt Ideal) :=
  layerMul (aggOf (F := Ideal) (layer1 x e Wl bl Wr ga be) e) (layer1 x e Wl bl Wr ga be) (invDeg (F := Ideal) e)
    (wT (mat1 (F := Ideal) Wl)) (wT (mat1 (F := Ideal) Wr))
    (rowOf (vec1 (F := Ideal) bl)) (rowOf (vec1 (F := Ideal) ga)) (rowOf (vec1 (F := Ideal) be))

/-- The first launch leaves the first layer in its result buffer. -/
theorem W2_v38 (c : Dev nD) : W2 m ρ c (Proc.devRef .tc main_v38) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 8).trans ((Cert.KernelIdeal.Region0.arr_final (V1 m ρ) c).trans ?_)
  unfold Cert.KernelIdeal.Region0.G layer1
  rw [V1_v37, V1_v12, V1_v15, V1_v18, V1_v21, V1_v24, V1_v27, show V1 m ρ c main_arg0 = (m ((c : Thread nD τ).loc main_arg0)) from V1_arg m ρ c 0]

/-- A buffer the first launch does not stage keeps its contents: the edge rows and the stacked parameters. -/
theorem W2_v1 (c : Dev nD) : W2 m ρ c (Proc.devRef .tc main_v1) = edgeSrc (F := Ideal) (m ((c : Thread nD τ).loc main_arg1)) :=
  (W2_of_ne m ρ c main_v1 (by decide)).trans (V1_v1 m ρ c)
theorem W2_v3 (c : Dev nD) : W2 m ρ c (Proc.devRef .tc main_v3) = edgeDst (F := Ideal) (m ((c : Thread nD τ).loc main_arg1)) :=
  (W2_of_ne m ρ c main_v3 (by decide)).trans (V1_v3 m ρ c)
theorem W2_arg2 (c : Dev nD) : W2 m ρ c (Proc.devRef .tc main_arg2) = (m ((c : Thread nD τ).loc main_arg2)) := (W2_of_ne m ρ c main_arg2 (by decide)).trans (V1_arg m ρ c 2)
theorem W2_arg3 (c : Dev nD) : W2 m ρ c (Proc.devRef .tc main_arg3) = (m ((c : Thread nD τ).loc main_arg3)) := (W2_of_ne m ρ c main_arg3 (by decide)).trans (V1_arg m ρ c 3)
theorem W2_arg4 (c : Dev nD) : W2 m ρ c (Proc.devRef .tc main_arg4) = (m ((c : Thread nD τ).loc main_arg4)) := (W2_of_ne m ρ c main_arg4 (by decide)).trans (V1_arg m ρ c 4)
theorem W2_arg5 (c : Dev nD) : W2 m ρ c (Proc.devRef .tc main_arg5) = (m ((c : Thread nD τ).loc main_arg5)) := (W2_of_ne m ρ c main_arg5 (by decide)).trans (V1_arg m ρ c 5)
theorem W2_arg6 (c : Dev nD) : W2 m ρ c (Proc.devRef .tc main_arg6) = (m ((c : Thread nD τ).loc main_arg6)) := (W2_of_ne m ρ c main_arg6 (by decide)).trans (V1_arg m ρ c 6)
/-- The reciprocal-degree column is staged by the first launch as an input: it ends as it was entered. -/
theorem W2_v12 (c : Dev nD) : W2 m ρ c (Proc.devRef .tc main_v12) = invDeg (F := Ideal) (m ((c : Thread nD τ).loc main_arg1)) :=
  (W2_arr m ρ c 2).trans (((dat0 (V1 m ρ) c).arrAt_in 2 rfl _).trans ((A_eq0 (V1 m ρ) c 2).trans (V1_v12 m ρ c)))

/-! ## At the second launch -/

theorem V3_v63 (c : Dev nD) : V3 m ρ c main_v63 = aggOf (F := Ideal) (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) := by
  show StableHlo.after hostOps1 (W2 m ρ c) (Proc.devRef .tc main_v63) = _
  after_results_simp
  rw [W2_v38, W2_v1, W2_v3]
  rfl
theorem V3_v38 (c : Dev nD) : V3 m ρ c main_v38 = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v38) = _
  after_results_simp
  exact W2_v38 m ρ c
theorem V3_v12 (c : Dev nD) : V3 m ρ c main_v12 = invDeg (F := Ideal) (m ((c : Thread nD τ).loc main_arg1)) := by
  show StableHlo.after hostOps1 (W2 m ρ c) (Proc.devRef .tc main_v12) = _
  after_results_simp
  exact W2_v12 m ρ c
theorem V3_v41 (c : Dev nD) : V3 m ρ c main_v41 = wT (mat1 (F := Ideal) (m ((c : Thread nD τ).loc main_arg2))) := by
  show StableHlo.after hostOps1 (W2 m ρ c) (Proc.devRef .tc main_v41) = _
  after_results_simp
  rw [W2_arg2]
  rfl
theorem V3_v44 (c : Dev nD) : V3 m ρ c main_v44 = wT (mat1 (F := Ideal) (m ((c : Thread nD τ).loc main_arg4))) := by
  show StableHlo.after hostOps1 (W2 m ρ c) (Proc.devRef .tc main_v44) = _
  after_results_simp
  rw [W2_arg4]
  rfl
theorem V3_v47 (c : Dev nD) : V3 m ρ c main_v47 = rowOf (vec1 (F := Ideal) (m ((c : Thread nD τ).loc main_arg3))) := by
  show StableHlo.after hostOps1 (W2 m ρ c) (Proc.devRef .tc main_v47) = _
  after_results_simp
  rw [W2_arg3]
  rfl
theorem V3_v50 (c : Dev nD) : V3 m ρ c main_v50 = rowOf (vec1 (F := Ideal) (m ((c : Thread nD τ).loc main_arg5))) := by
  show StableHlo.after hostOps1 (W2 m ρ c) (Proc.devRef .tc main_v50) = _
  after_results_simp
  rw [W2_arg5]
  rfl
theorem V3_v53 (c : Dev nD) : V3 m ρ c main_v53 = rowOf (vec1 (F := Ideal) (m ((c : Thread nD τ).loc main_arg6))) := by
  show StableHlo.after hostOps1 (W2 m ρ c) (Proc.devRef .tc main_v53) = _
  after_results_simp
  rw [W2_arg6]
  rfl

/-- THE RESULT: after the second launch the program's result buffer holds the second layer of the argument arrays. -/
theorem W4_v64 (c : Dev nD) : W4 m ρ c (Proc.devRef .tc main_v64) = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 8).trans ((Cert.KernelIdeal.Region1.arr_final (V3 m ρ) c).trans ?_)
  unfold Cert.KernelIdeal.Region1.G layer2
  rw [V3_v63, V3_v38, V3_v12, V3_v41, V3_v44, V3_v47, V3_v50, V3_v53]

end Cert.KernelIdeal.HostSide

end
-- ==== Proof.RefOps.lean ====
/-
  The reference's @main as the list of its 184 host operations, in order: its own 136 statements with each call of a
  module-local function (the rectifier, the variance, the select inside the variance) written out at the call site
  over that call's buffers; and, operation by operation, that it touches TensorCore buffers only.
-/
import proofs.«100400_j1142461300900_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.unary main_arg3 main_v6 ((extractStridedSlice S1x128 ![0, 0] · slices_S2x128_S1x128_0_0) : (⟨S2x128, .f32⟩ : BufTy).Contents (Elt F) → (⟨S1x128, .f32⟩ : BufTy).Contents (Elt F)),
    StableHlo.reshape main_v6 main_v7 rfl shapeCasts_S1x128_S128,
    StableHlo.unary main_arg4 main_v8 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v8 main_v9 rfl shapeCasts_S1x128x128_S128x128,
    StableHlo.unary main_arg5 main_v10 ((extractStridedSlice S1x128 ![0, 0] · slices_S2x128_S1x128_0_0) : (⟨S2x128, .f32⟩ : BufTy).Contents (Elt F) → (⟨S1x128, .f32⟩ : BufTy).Contents (Elt F)),
    StableHlo.reshape main_v10 main_v11 rfl shapeCasts_S1x128_S128,
    StableHlo.unary main_arg6 main_v12 ((extractStridedSlice S1x128 ![0, 0] · slices_S2x128_S1x128_0_0) : (⟨S2x128, .f32⟩ : BufTy).Contents (Elt F) → (⟨S1x128, .f32⟩ : BufTy).Contents (Elt F)),
    StableHlo.reshape main_v12 main_v13 rfl shapeCasts_S1x128_S128,
    StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_arg0 main_v19 main_v20 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v24 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v25 (broadcastInDim S50000 ![] bcast_S_S50000 : (⟨S_, .f32⟩ : BufTy).Contents (Elt F) → (⟨S50000, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v28 (broadcastInDim S50000 ![] bcast_S_S50000 : (⟨S_, .f32⟩ : BufTy).Contents (Elt F) → (⟨S50000, .f32⟩ : BufTy).Contents (Elt F)),
    StableHlo.binary main_v27 main_v28 main_v29 (maximumf : (⟨S50000, .f32⟩ : BufTy).Contents (Elt F) → (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x128 ![0, 1] bcast_S50000x1_S50000x128_0_1 : (⟨S50000x1, .f32⟩ : BufTy).Contents (Elt F) → (⟨S50000x128, .f32⟩ : BufTy).Contents (Elt F)),
    StableHlo.binary main_v23 main_v31 main_v32 (Host.divf : (⟨S50000x128, .f32⟩ : BufTy).Contents (Elt F) → (⟨S50000x128, .f32⟩ : BufTy).Contents (Elt F) → (⟨S50000x128, .f32⟩ : BufTy).Contents (Elt F)),
    StableHlo.unary main_v5 main_v33 ((transpose S128x128 [1, 0] · transposes_S128x128_S128x128_1_0) : (⟨S128x128, .f32⟩ : BufTy).Contents (Elt F) → (⟨S128x128, .f32⟩ : BufTy).Contents (Elt F)),
    StableHlo.binary main_v32 main_v33 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v36 main_v37 (addf : (⟨S50000x128, .f32⟩ : BufTy).Contents (Elt F) → (⟨S50000x128, .f32⟩ : BufTy).Contents (Elt F) → (⟨S50000x128, .f32⟩ : BufTy).Contents (Elt F)),
    StableHlo.unary main_v9 main_v38 ((transpose S128x128 [1, 0] · transposes_S128x128_S128x128_1_0) : (⟨S128x128, .f32⟩ : BufTy).Contents (Elt F) → (⟨S128x128, .f32⟩ : BufTy).Contents (Elt F)),
    StableHlo.binary main_arg0 main_v38 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v37 main_v39 main_v40 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v40) main_call0.v0 main_call0.v1 maximumf,
    StableHlo.nullary main_cst_4 (constant S_ .f32 0x00000000#32),
    StableHlo.binary main_v41 main_cst_4 main_v42 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v42 main_v43 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x43000000#32),
    StableHlo.unary main_cst_5 main_v44 (broadcastInDim S50000x1 ![] bcast_S_S50000x1 : (⟨S_, .f32⟩ : BufTy).Contents (Elt F) → (⟨S50000x1, .f32⟩ : BufTy).Contents (Elt F)),
    StableHlo.binary main_v43 main_v44 main_v45 (Host.divf : (⟨S50000x1, .f32⟩ : BufTy).Contents (Elt F) → (⟨S50000x1, .f32⟩ : BufTy).Contents (Elt F) → (⟨S50000x1, .f32⟩ : BufTy).Contents (Elt F)),
    StableHlo.nullary main_c_6 (constantI S_ 32 0#32),
    StableHlo.TRef.nullary main_call1.cst (constant S_ .f32 0x00000000#32),
    StableHlo.TRef.binary (.of main_v41) main_call1.cst main_call1.v0 (fun x v => Host.reduceAdd x v reducesTo_S50000x128_S50000_d1 h_S_),
    StableHlo.TRef.unary main_call1.v0 main_call1.v1 (broadcastInDim S50000x1 ![0] bcast_S50000_S50000x1_0),
    StableHlo.TRef.nullary main_call1.cst_0 (constant S_ .f32 0x43000000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x128 ![0, 1] bcast_S50000x1_S50000x128_0_1),
    StableHlo.TRef.binary (.of main_v41) main_call1.v4 main_call1.v5 subf,
    StableHlo.TRef.binary main_call1.v5 main_call1.v5 main_call1.v6 mulf,
    StableHlo.TRef.unary (.of main_c_6) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b),
    StableHlo.unary main_v45 main_v47 (broadcastInDim S50000x128 ![0, 1] bcast_S50000x1_S50000x128_0_1 : (⟨S50000x1, .f32⟩ : BufTy).Contents (Elt F) → (⟨S50000x128, .f32⟩ : BufTy).Contents (Elt F)),
    StableHlo.binary main_v41 main_v47 main_v48 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v49 (broadcastInDim S50000x1 ![] bcast_S_S50000x1 : (⟨S_, .f32⟩ : BufTy).Contents (Elt F) → (⟨S50000x1, .f32⟩ : BufTy).Contents (Elt F)),
    StableHlo.binary main_v46 main_v49 main_v50 (addf : (⟨S50000x1, .f32⟩ : BufTy).Contents (Elt F) → (⟨S50000x1, .f32⟩ : BufTy).Contents (Elt F) → (⟨S50000x1, .f32⟩ : BufTy).Contents (Elt F)),
    StableHlo.unary main_v50 main_v51 (Host.rsqrt : (⟨S50000x1, .f32⟩ : BufTy).Contents (Elt F) → (⟨S50000x1, .f32⟩ : BufTy).Contents (Elt F)),
    StableHlo.unary main_v51 main_v52 (broadcastInDim S50000x128 ![0, 1] bcast_S50000x1_S50000x128_0_1 : (⟨S50000x1, .f32⟩ : BufTy).Contents (Elt F) → (⟨S50000x128, .f32⟩ : BufTy).Contents (Elt F)),
    StableHlo.binary main_v48 main_v52 main_v53 (mulf : (⟨S50000x128, .f32⟩ : BufTy).Contents (Elt F) → (⟨S50000x128, .f32⟩ : BufTy).Contents (Elt F) → (⟨S50000x128, .f32⟩ : BufTy).Contents (Elt F)),
    StableHlo.unary main_v11 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (mulf : (⟨S50000x128, .f32⟩ : BufTy).Contents (Elt F) → (⟨S50000x128, .f32⟩ : BufTy).Contents (Elt F) → (⟨S50000x128, .f32⟩ : BufTy).Contents (Elt F)),
    StableHlo.unary main_v13 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (addf : (⟨S50000x128, .f32⟩ : BufTy).Contents (Elt F) → (⟨S50000x128, .f32⟩ : BufTy).Contents (Elt F) → (⟨S50000x128, .f32⟩ : BufTy).Contents (Elt F)),
    StableHlo.unary main_arg2 main_v60 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v60 main_v61 rfl shapeCasts_S1x128x128_S128x128,
    StableHlo.unary main_arg3 main_v62 ((extractStridedSlice S1x128 ![1, 0] · slices_S2x128_S1x128_1_0) : (⟨S2x128, .f32⟩ : BufTy).Contents (Elt F) → (⟨S1x128, .f32⟩ : BufTy).Contents (Elt F)),
    StableHlo.reshape main_v62 main_v63 rfl shapeCasts_S1x128_S128,
    StableHlo.unary main_arg4 main_v64 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v64 main_v65 rfl shapeCasts_S1x128x128_S128x128,
    StableHlo.unary main_arg5 main_v66 ((extractStridedSlice S1x128 ![1, 0] · slices_S2x128_S1x128_1_0) : (⟨S2x128, .f32⟩ : BufTy).Contents (Elt F) → (⟨S1x128, .f32⟩ : BufTy).Contents (Elt F)),
    StableHlo.reshape main_v66 main_v67 rfl shapeCasts_S1x128_S128,
    StableHlo.unary main_arg6 main_v68 ((extractStridedSlice S1x128 ![1, 0] · slices_S2x128_S1x128_1_0) : (⟨S2x128, .f32⟩ : BufTy).Contents (Elt F) → (⟨S1x128, .f32⟩ : BufTy).Contents (Elt F)),
    StableHlo.reshape main_v68 main_v69 rfl shapeCasts_S1x128_S128,
    StableHlo.nullary main_c_8 (constantI S_ 32 0#32),
    StableHlo.unary main_c_8 main_v70 (broadcastInDim S800000 ![] bcast_S_S800000 : (⟨S_, .i32⟩ : BufTy).Contents (Elt F) → (⟨S800000, .i32⟩ : BufTy).Contents (Elt F)),
    StableHlo.binary main_v1 main_v70 main_v71 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v72 (broadcastInDim S800000 ![] bcast_S_S800000 : (⟨S_, .i32⟩ : BufTy).Contents (Elt F) → (⟨S800000, .i32⟩ : BufTy).Contents (Elt F)),
    StableHlo.binary main_v1 main_v72 main_v73 (addi : (⟨S800000, .i32⟩ : BufTy).Contents (Elt F) → (⟨S800000, .i32⟩ : BufTy).Contents (Elt F) → (⟨S800000, .i32⟩ : BufTy).Contents (Elt F)),
    StableHlo.ternary main_v71 main_v73 main_v1 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v74 main_v75 (broadcastInDim S800000x1 ![0] bcast_S800000_S800000x1_0 : (⟨S800000, .i32⟩ : BufTy).Contents (Elt F) → (⟨S800000x1, .i32⟩ : BufTy).Contents (Elt F)),
    StableHlo.binary main_v59 main_v75 main_v76 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v77 (broadcastInDim S50000x128 ![] bcast_S_S50000x128 : (⟨S_, .f32⟩ : BufTy).Contents (Elt F) → (⟨S50000x128, .f32⟩ : BufTy).Contents (Elt F)),
    StableHlo.unary main_v3 main_v78 (broadcastInDim S800000x1 ![0] bcast_S800000_S800000x1_0 : (⟨S800000, .i32⟩ : BufTy).Contents (Elt F) → (⟨S800000x1, .i32⟩ : BufTy).Contents (Elt F)),
    StableHlo.ternary main_v77 main_v78 main_v76 main_v79 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_11 (constant S_ .f32 0x3F800000#32),
    StableHlo.unary main_cst_11 main_v80 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v81 (broadcastInDim S50000 ![] bcast_S_S50000 : (⟨S_, .f32⟩ : BufTy).Contents (Elt F) → (⟨S50000, .f32⟩ : BufTy).Contents (Elt F)),
    StableHlo.unary main_v3 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.unary main_cst_13 main_v84 (broadcastInDim S50000 ![] bcast_S_S50000 : (⟨S_, .f32⟩ : BufTy).Contents (Elt F) → (⟨S50000, .f32⟩ : BufTy).Contents (Elt F)),
    StableHlo.binary main_v83 main_v84 main_v85 (maximumf : (⟨S50000, .f32⟩ : BufTy).Contents (Elt F) → (⟨S50000, .f32⟩ : BufTy).Contents (Elt F) → (⟨S50000, .f32⟩ : BufTy).Contents (Elt F)),
    StableHlo.unary main_v85 main_v86 (broadcastInDim S50000x1 ![0] bcast_S50000_S50000x1_0 : (⟨S50000, .f32⟩ : BufTy).Contents (Elt F) → (⟨S50000x1, .f32⟩ : BufTy).Contents (Elt F)),
    StableHlo.unary main_v86 main_v87 (broadcastInDim S50000x128 ![0, 1] bcast_S50000x1_S50000x128_0_1 : (⟨S50000x1, .f32⟩ : BufTy).Contents (Elt F) → (⟨S50000x128, .f32⟩ : BufTy).Contents (Elt F)),
    StableHlo.binary main_v79 main_v87 main_v88 (Host.divf : (⟨S50000x128, .f32⟩ : BufTy).Contents (Elt F) → (⟨S50000x128, .f32⟩ : BufTy).Contents (Elt F) → (⟨S50000x128, .f32⟩ : BufTy).Contents (Elt F)),
    StableHlo.unary main_v61 main_v89 ((transpose S128x128 [1, 0] · transposes_S128x128_S128x128_1_0) : (⟨S128x128, .f32⟩ : BufTy).Contents (Elt F) → (⟨S128x128, .f32⟩ : BufTy).Contents (Elt F)),
    StableHlo.binary main_v88 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v63 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)),
    StableHlo.unary main_v65 main_v94 ((transpose S128x128 [1, 0] · transposes_S128x128_S128x128_1_0) : (⟨S128x128, .f32⟩ : BufTy).Contents (Elt F) → (⟨S128x128, .f32⟩ : BufTy).Contents (Elt F)),
    StableHlo.binary main_v59 main_v94 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v96) main_call2.v0 main_call2.v1 maximumf,
    StableHlo.nullary main_cst_14 (constant S_ .f32 0x00000000#32),
    StableHlo.binary main_v97 main_cst_14 main_v98 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v98 main_v99 (broadcastInDim S50000x1 ![0] bcast_S50000_S50000x1_0 : (⟨S50000, .f32⟩ : BufTy).Contents (Elt F) → (⟨S50000x1, .f32⟩ : BufTy).Contents (Elt F)),
    StableHlo.nullary main_cst_15 (constant S_ .f32 0x43000000#32),
    StableHlo.unary main_cst_15 main_v100 (broadcastInDim S50000x1 ![] bcast_S_S50000x1 : (⟨S_, .f32⟩ : BufTy).Contents (Elt F) → (⟨S50000x1, .f32⟩ : BufTy).Contents (Elt F)),
    StableHlo.binary main_v99 main_v100 main_v101 (Host.divf : (⟨S50000x1, .f32⟩ : BufTy).Contents (Elt F) → (⟨S50000x1, .f32⟩ : BufTy).Contents (Elt F) → (⟨S50000x1, .f32⟩ : BufTy).Contents (Elt F)),
    StableHlo.nullary main_c_16 (constantI S_ 32 0#32),
    StableHlo.TRef.nullary main_call3.cst (constant S_ .f32 0x00000000#32),
    StableHlo.TRef.binary (.of main_v97) main_call3.cst main_call3.v0 (fun x v => Host.reduceAdd x v reducesTo_S50000x128_S50000_d1 h_S_),
    StableHlo.TRef.unary main_call3.v0 main_call3.v1 (broadcastInDim S50000x1 ![0] bcast_S50000_S50000x1_0),
    StableHlo.TRef.nullary main_call3.cst_0 (constant S_ .f32 0x43000000#32),
    StableHlo.TRef.unary main_call3.cst_0 main_call3.v2 (broadcastInDim S50000x1 ![] bcast_S_S50000x1),
    StableHlo.TRef.binary main_call3.v1 main_call3.v2 main_call3.v3 Host.divf,
    StableHlo.TRef.unary main_call3.v3 main_call3.v4 (broadcastInDim S50000x128 ![0, 1] bcast_S50000x1_S50000x128_0_1),
    StableHlo.TRef.binary (.of main_v97) main_call3.v4 main_call3.v5 subf,
    StableHlo.TRef.binary main_call3.v5 main_call3.v5 main_call3.v6 mulf,
    StableHlo.TRef.unary (.of main_c_16) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S50000_d1 h_S_),
    StableHlo.TRef.unary main_call3.v9 main_call3.v10 (broadcastInDim S50000x1 ![0] bcast_S50000_S50000x1_0),
    StableHlo.TRef.unary main_call3.v8 main_call3.v11 (broadcastInDim S50000x1 ![] bcast_S_S50000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S50000x1 ![] bcast_S_S50000x1),
    StableHlo.TRef.ternary main_call3.v13 main_call3.v12 main_call3.call0.v1 main_call3.call0.v2 (fun p a b => select (broadcastInDim S50000x1 ![] bcast_S_S50000x1 p) a b),
    StableHlo.unary main_v101 main_v103 (broadcastInDim S50000x128 ![0, 1] bcast_S50000x1_S50000x128_0_1 : (⟨S50000x1, .f32⟩ : BufTy).Contents (Elt F) → (⟨S50000x128, .f32⟩ : BufTy).Contents (Elt F)),
    StableHlo.binary main_v97 main_v103 main_v104 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v105 (broadcastInDim S50000x1 ![] bcast_S_S50000x1 : (⟨S_, .f32⟩ : BufTy).Contents (Elt F) → (⟨S50000x1, .f32⟩ : BufTy).Contents (Elt F)),
    StableHlo.binary main_v102 main_v105 main_v106 (addf : (⟨S50000x1, .f32⟩ : BufTy).Contents (Elt F) → (⟨S50000x1, .f32⟩ : BufTy).Contents (Elt F) → (⟨S50000x1, .f32⟩ : BufTy).Contents (Elt F)),
    StableHlo.unary main_v106 main_v107 (Host.rsqrt : (⟨S50000x1, .f32⟩ : BufTy).Contents (Elt F) → (⟨S50000x1, .f32⟩ : BufTy).Contents (Elt F)),
    StableHlo.unary main_v107 main_v108 (broadcastInDim S50000x128 ![0, 1] bcast_S50000x1_S50000x128_0_1 : (⟨S50000x1, .f32⟩ : BufTy).Contents (Elt F) → (⟨S50000x128, .f32⟩ : BufTy).Contents (Elt F)),
    StableHlo.binary main_v104 main_v108 main_v109 (mulf : (⟨S50000x128, .f32⟩ : BufTy).Contents (Elt F) → (⟨S50000x128, .f32⟩ : BufTy).Contents (Elt F) → (⟨S50000x128, .f32⟩ : BufTy).Contents (Elt F)),
    StableHlo.unary main_v67 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v111 main_v112 (mulf : (⟨S50000x128, .f32⟩ : BufTy).Contents (Elt F) → (⟨S50000x128, .f32⟩ : BufTy).Contents (Elt F) → (⟨S50000x128, .f32⟩ : BufTy).Contents (Elt F)),
    StableHlo.unary main_v69 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v114 main_v115 (addf : (⟨S50000x128, .f32⟩ : BufTy).Contents (Elt F) → (⟨S50000x128, .f32⟩ : BufTy).Contents (Elt F) → (⟨S50000x128, .f32⟩ : BufTy).Contents (Elt F)) ]

/-- Every operation reads and writes TensorCore buffers only. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Cert.ReferenceIdeal.RefRun

end
-- ==== Proof.RefLayer.lean ====
/-
  The reference's run, and what it computes, stage by stage.

  The reference applies one layer twice. A layer reads the edge table (row 0: the source node of each edge, row 1 its
  destination), gathers the source rows of the current features h, sums them into their destination rows (the aggregate),
  counts each node's incoming edges the same way and clamps the count below by 1 (the degree), divides the aggregate by
  the degree, contracts with the transposed weights, adds the bias and the node's own contraction, rectifies, and
  layer-normalises each row (mean and variance over the 128 features, the variance through jnp's `_var`, which divides
  by 128 − ddof with ddof = 0 and guards the quotient by `128 − ddof > 0`). The stages below are the printed operations
  composed; the gather, the two scatter-adds and the slicing of the stacked weights are kept as they are printed: the
  kernel's program applies the very same operations.
-/
import proofs.«100400_j1142461300900_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Row k of the edge table as a vector of 800000 node ids (k = 0: sources, k = 1: destinations). -/
def edgeSrc (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
def edgeDst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The source ids as a column, a negative id counted from the end (id + 50000). -/
def srcCol (e : (⟨S2x800000, .i32⟩ : BufTy).Contents (Elt F)) : (⟨S800000x1, .i32⟩ : BufTy).Contents (Elt F) :=
  broadcastInDim S800000x1 ![0] bcast_S800000_S800000x1_0
    (select (cmpi .slt (edgeSrc (F := F) e) (broadcastInDim S800000 ![] bcast_S_S800000 (constantI S_ 32 0#32)))
      (addi (edgeSrc (F := F) e) (broadcastInDim S800000 ![] bcast_S_S800000 (constantI S_ 32 50000#32))) (edgeSrc (F := F) e))

/-- The destination ids as a column. -/
def dstCol (e : (⟨S2x800000, .i32⟩ : BufTy).Contents (Elt F)) : (⟨S800000x1, .i32⟩ : BufTy).Contents (Elt F) :=
  broadcastInDim S800000x1 ![0] bcast_S800000_S800000x1_0 (edgeDst (F := F) e)

/-- The aggregate: the source rows of h summed into their destination rows. -/
def aggOf (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol (F := F) e)
    (Host.gather gather_S50000x128_S800000x1_S800000x128_1_0_n_n_0_1_1128 h (srcCol (F := F) e))

/-- The degree: each node's number of incoming edges (ones summed into the destinations), at least 1. -/
def degOf (e : (⟨S2x800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32))
      (dstCol (F := F) e) (broadcastInDim S800000 ![] bcast_S_S800000 (constant S_ .f32 0x3F800000#32)))
    (broadcastInDim S50000 ![] bcast_S_S50000 (constant S_ .f32 0x3F800000#32))

/-- A [128] vector spread over the 50000 rows. -/
def rowsOf (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- A [50000, 1] column spread over the 128 features. -/
def colsOf (v : (⟨S50000x1, .f32⟩ : BufTy).Contents (Elt F)) : (⟨S50000x128, .f32⟩ : BufTy).Contents (Elt F) :=
  broadcastInDim S50000x128 ![0, 1] bcast_S50000x1_S50000x128_0_1 v

/-- The rectified pre-activation: (agg / deg)·Wlᵀ + b + h·Wrᵀ, then the maximum with 0. -/
def rectOf (h : (⟨S50000x128, .f32⟩ : BufTy).Contents (Elt F)) (e : (⟨S2x800000, .i32⟩ : BufTy).Contents (Elt F))
    (wl wr : (⟨S128x128, .f32⟩ : BufTy).Contents (Elt F)) (b : (⟨S128, .f32⟩ : BufTy).Contents (Elt F)) :
    (⟨S50000x128, .f32⟩ : BufTy).Contents (Elt F) :=
  maximumf
    (addf
      (addf
        (Host.dotGeneral dot_S50000x128_S128x128_S50000x128_1_0_0_1_n_n none
          (Host.divf (aggOf h e) (colsOf (broadcastInDim S50000x1 ![0] bcast_S50000_S50000x1_0 (degOf (F := F) e))))
          (transpose S128x128 [1, 0] wl transposes_S128x128_S128x128_1_0))
        (rowsOf b))
      (Host.dotGeneral dot_S50000x128_S128x128_S50000x128_1_0_0_1_n_n none h (transpose S128x128 [1, 0] wr transposes_S128x128_S128x128_1_0)))
    (broadcastInDim S50000x128 ![] bcast_S_S50000x128 (constant S_ .f32 0x00000000#32))

/-- The row means of a [50000, 128] array, as a column: the row sums divided by 128. -/
def meanCol (x : (⟨S50000x128, .f32⟩ : BufTy).Contents (Elt F)) : (⟨S50000x1, .f32⟩ : BufTy).Contents (Elt F) :=
  Host.divf (broadcastInDim S50000x1 ![0] bcast_S50000_S50000x1_0 (Host.reduceAdd x (constant S_ .f32 0x00000000#32) reducesTo_S50000x128_S50000_d1 h_S_))
    (broadcastInDim S50000x1 ![] bcast_S_S50000x1 (constant S_ .f32 0x43000000#32))

/-- The divisor of the variance: 128 less the (integer) zero degrees of freedom. -/
def varDen : (⟨S_, .f32⟩ : BufTy).Contents (Elt F) :=
  subf (constant S_ .f32 0x43000000#32) (sitofp .f32 (constantI S_ 32 0#32))

/-- The row variances as a column: the squared deviations from the row mean summed and divided by `varDen`, where that
    divisor is positive (else a NaN). -/
def varCol (x : (⟨S50000x128, .f32⟩ : BufTy).Contents (Elt F)) : (⟨S50000x1, .f32⟩ : BufTy).Contents (Elt F) :=
  select (broadcastInDim S50000x1 ![] bcast_S_S50000x1 (cmpf .ogt (varDen (F := F)) (constant S_ .f32 0x00000000#32)))
    (Host.divf
      (broadcastInDim S50000x1 ![0] bcast_S50000_S50000x1_0
        (Host.reduceAdd (mulf (subf x (colsOf (meanCol x))) (subf x (colsOf (meanCol x)))) (constant S_ .f32 0x00000000#32)
          reducesTo_S50000x128_S50000_d1 h_S_))
      (broadcastInDim S50000x1 ![] bcast_S_S50000x1 (varDen (F := F))))
    (broadcastInDim S50000x1 ![] bcast_S_S50000x1 (id (constant S_ .f32 0x7FC00000#32)))

/-- Layer normalisation of the rows of x, scaled by γ and shifted by β. -/
def normOf (x : (⟨S50000x128, .f32⟩ : BufTy).Contents (Elt F)) (g be : (⟨S128, .f32⟩ : BufTy).Contents (Elt F)) :
    (⟨S50000x128, .f32⟩ : BufTy).Contents (Elt F) :=
  addf
    (mulf
      (mulf (subf x (colsOf (meanCol x)))
        (colsOf (Host.rsqrt (addf (varCol x) (broadcastInDim S50000x1 ![] bcast_S_S50000x1 (constant S_ .f32 0x3727C5AC#32))))))
      (rowsOf g))
    (rowsOf be)

/-- One layer. -/
def layerOf (h : (⟨S50000x128, .f32⟩ : BufTy).Contents (Elt F)) (e : (⟨S2x800000, .i32⟩ : BufTy).Contents (Elt F))
    (wl wr : (⟨S128x128, .f32⟩ : BufTy).Contents (Elt F)) (b g be : (⟨S128, .f32⟩ : BufTy).Contents (Elt F)) :
    (⟨S50000x128, .f32⟩ : BufTy).Contents (Elt F) :=
  normOf (rectOf h e wl wr b) g be

/-- Slice k of a stacked [2, 128, 128] weight as a matrix, and of a stacked [2, 128] vector as a vector. -/
def mat0 (w : (⟨S2x128x128, .f32⟩ : BufTy).Contents (Elt F)) : (⟨S128x128, .f32⟩ : BufTy).Contents (Elt F) :=
  shapeCast S128x128 (extractStridedSlice S1x128x128 ![0, 0, 0] w slices_S2x128x128_S1x128x128_0_0_0) shapeCasts_S1x128x128_S128x128
def mat1 (w : (⟨S2x128x128, .f32⟩ : BufTy).Contents (Elt F)) : (⟨S128x128, .f32⟩ : BufTy).Contents (Elt F) :=
  shapeCast S128x128 (extractStridedSlice S1x128x128 ![1, 0, 0] w slices_S2x128x128_S1x128x128_1_0_0) shapeCasts_S1x128x128_S128x128
def vec0 (v : (⟨S2x128, .f32⟩ : BufTy).Contents (Elt F)) : (⟨S128, .f32⟩ : BufTy).Contents (Elt F) :=
  shapeCast S128 (extractStridedSlice S1x128 ![0, 0] v slices_S2x128_S1x128_0_0) shapeCasts_S1x128_S128
def vec1 (v : (⟨S2x128, .f32⟩ : BufTy).Contents (Elt F)) : (⟨S128, .f32⟩ : BufTy).Contents (Elt F) :=
  shapeCast S128 (extractStridedSlice S1x128 ![1, 0] v slices_S2x128_S1x128_1_0) shapeCasts_S1x128_S128

/-- The whole reference: the second layer of the first layer of x. -/
def netOf (x : (⟨S50000x128, .f32⟩ : BufTy).Contents (Elt F)) (e : (⟨S2x800000, .i32⟩ : BufTy).Contents (Elt F))
    (Wl : (⟨S2x128x128, .f32⟩ : BufTy).Contents (Elt F)) (bl : (⟨S2x128, .f32⟩ : BufTy).Contents (Elt F))
    (Wr : (⟨S2x128x128, .f32⟩ : BufTy).Contents (Elt F)) (ga be : (⟨S2x128, .f32⟩ : BufTy).Contents (Elt F)) :
    (⟨S50000x128, .f32⟩ : BufTy).Contents (Elt F) :=
  layerOf (layerOf x e (mat0 Wl) (mat0 Wr) (vec0 bl) (vec0 ga) (vec0 be)) e (mat1 Wl) (mat1 Wr) (vec1 bl) (vec1 ga) (vec1 be)

/-! ## The run -/

set_option maxRecDepth 16384 in
/-- @main is the straight line of its operations: the three windows of statements in order, each function's body
    unfolded at its call and each call's record at its fields. -/
theorem main_eq (c : Dev nD) : main (F := F) c = seq ops := by
  simp only [main, main_part0, main_part1, main_part2, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates with each TensorCore buffer at the fold of the operations'
    results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefValue.lean ====
/-
  What the reference's run leaves in its result buffer, and that it leaves the arguments alone.

  The fold of the 184 operations, read at the result buffer, is the second layer of the first layer of the argument arrays
  (`netOf`): each operation's result at its own buffer is its function of its operands' contents, and a buffer no later
  operation writes keeps what it held. No operation writes an argument buffer.
-/
import proofs.«100400_j1142461300900_2_alg».proof.Proof.RefLayer

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd in
set_option maxRecDepth 65536 in
set_option maxHeartbeats 4000000 in
/-- The fold at the result buffer is the network of the argument arrays. -/
theorem out_eq (V : Valuation τ sig (Elt F)) :
    after ops V (main_v115 : DevRef τ sig)
      = netOf (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  simp only [after_cons, after_nil]
  rfl

set_option maxRecDepth 65536 in
set_option maxHeartbeats 4000000 in
/-- No operation writes an argument: the fold at an argument's buffer is what the buffer held (each operation writes its
    one result buffer, and none of those is an argument). -/
theorem arg_kept (V : Valuation τ sig (Elt F)) (k : Fin 7) :
    after ops V (Proc.devRef .tc (![main_arg0, main_arg1, main_arg2, main_arg3, main_arg4, main_arg5, main_arg6] k))
      = V (Proc.devRef .tc (![main_arg0, main_arg1, main_arg2, main_arg3, main_arg4, main_arg5, main_arg6] k)) := by
  refine after_of_forall_not_mem (b := Proc.devRef .tc (![main_arg0, main_arg1, main_arg2, main_arg3, main_arg4, main_arg5, main_arg6] k))
    ops V (List.forall_iff_forall_mem.mp ?_)
  fin_cases k <;>
  · simp only [ops, List.Forall, TRef.nullary, TRef.unary, TRef.binary, TRef.ternary, nullary_writes, unary_writes, binary_writes,
      ternary_writes, reshape_writes, Finset.mem_singleton]
    repeat' apply And.intro
    all_goals exact devRef_ne_of_ne (by decide)

end Cert.ReferenceIdeal.RefRun

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.RefRead.lean ====
/-
  The reference's layer read at an index, on the extended reals.

  Entry (p, o) of a layer's result depends on row p of the aggregate, row p of the features, node p's degree, and the
  layer's weights: it is `SageRow.rowDiv` of those. The broadcasts read the entry they copy; the two contractions are sums
  over the contracted coordinate; the row sums start from the zero word, which is 0; the variance's divisor 128 − 0 is
  128 and its guard 128 − 0 > 0 holds, so the guarded quotient is the quotient.
-/
import proofs.«100400_j1142461300900_2_alg».proof.Proof.RefLayer
import proofs.«100400_j1142461300900_2_alg».proof.Proof.SageRow
import proofs.«100400_j1142461300900_2_alg».proof.Proof.LibPlainDot
import proofs.«100400_j1142461300900_2_alg».proof.Proof.LibRowReduce
import proofs.«100400_j1142461300900_2_alg».proof.Proof.LibBroadcastInDim
import proofs.«100400_j1142461300900_2_alg».proof.Proof.LibRowBroadcast
import Idealize.ShloMosaic.Lib.ValueLayout

noncomputable section

open scoped BigOperators

namespace Cert.ReferenceIdeal.RefRead

open Idealize.ShloMosaic Idealize.ShloMosaic.ValueIdx Cert.ReferenceIdeal Cert.ReferenceIdeal.Gen Cert.ReferenceIdeal.RefRun Cert.SageRow

/-- A [128] vector spread over the rows reads its entry o. -/
theorem rowsOf_apply (v : (⟨S128, .f32⟩ : BufTy).Contents (Elt Ideal)) (p : Fin 50000) (o : Fin 128) : rowsOf (F := Ideal) v (ix2 p o) = v (ix1 o) := by
  unfold rowsOf
  rw [Cert.LibRowBroadcast.row_mat_apply, Cert.LibRowBroadcast.vec_row_apply]

/-- A column spread over the features reads the row's entry. -/
theorem colsOf_apply (v : (⟨S50000x1, .f32⟩ : BufTy).Contents (Elt Ideal)) (p : Fin 50000) (o : Fin 128) :
    colsOf (F := Ideal) v (ix2 p o) = v (ix2 p (0 : Fin 1)) := by
  unfold colsOf
  rw [Cert.LibBroadcastInDim.col_mat_apply]

/-- The sum of row p on the host, from the zero word. -/
theorem hostRowSum_apply (x : (⟨S50000x128, .f32⟩ : BufTy).Contents (Elt Ideal)) (p : Fin 50000) :
    Host.reduceAdd (F := Ideal) x (constant S_ .f32 0x00000000#32) reducesTo_S50000x128_S50000_d1 h_S_ (ix1 p) = ∑ j : Fin 128, x (ix2 p j) := by
  refine (Cert.LibRowReduce.hostReduceAdd_row x (constant S_ .f32 0x00000000#32) reducesTo_S50000x128_S50000_d1 (by decide) h_S_ p).trans ?_
  show Ideal.ofBits .f32 0x00000000#32 + _ = _
  rw [Ideal.ofBits_zero_f32, zero_add]

/-- The mean of row p. -/
theorem meanCol_apply (x : (⟨S50000x128, .f32⟩ : BufTy).Contents (Elt Ideal)) (p : Fin 50000) :
    meanCol (F := Ideal) x (ix2 p (0 : Fin 1)) = mean (fun j => x (ix2 p j)) := by
  unfold meanCol
  show Ideal.div (broadcastInDim S50000x1 ![0] bcast_S50000_S50000x1_0
      (Host.reduceAdd (F := Ideal) x (constant S_ .f32 0x00000000#32) reducesTo_S50000x128_S50000_d1 h_S_) (ix2 p (0 : Fin 1)))
      (broadcastInDim S50000x1 ![] bcast_S_S50000x1 (constant (F := Ideal) S_ .f32 0x43000000#32) (ix2 p (0 : Fin 1))) = _
  rw [Cert.LibBroadcastInDim.vec_col_apply, Cert.LibBroadcastInDim.scalar_apply, hostRowSum_apply]
  rfl

/-- The variance's divisor is the word of 128: 128 less the integer 0. -/
theorem varDen_eq : varDen (F := Ideal) ix0 = Ideal.ofBits .f32 0x43000000#32 := by
  show Ideal.ofBits .f32 0x43000000#32 - (((0#32 : BitVec 32).toInt : ℝ) : EReal) = _
  simp

/-- The variance's guard holds: 128 > 0. -/
theorem varGuard_eq : Ideal.cmp .ogt (varDen (F := Ideal) ix0) (Ideal.ofBits .f32 0x00000000#32) = 1#1 := by
  rw [varDen_eq, word_128, Ideal.ofBits_zero_f32]
  have h : (0 : EReal) < ((128 : ℝ) : EReal) := by exact_mod_cast (by norm_num : (0 : ℝ) < 128)
  simp [Ideal.cmp, h]

/-- The variance of row p: the mean of the squared deviations from the row's mean. -/
theorem varCol_apply (x : (⟨S50000x128, .f32⟩ : BufTy).Contents (Elt Ideal)) (p : Fin 50000) :
    varCol (F := Ideal) x (ix2 p (0 : Fin 1))
      = mean (fun j => centred (fun j => x (ix2 p j)) j * centred (fun j => x (ix2 p j)) j) := by
  unfold varCol
  show Scalar.select (broadcastInDim S50000x1 ![] bcast_S_S50000x1 (cmpf (F := Ideal) .ogt (varDen (F := Ideal)) (constant S_ .f32 0x00000000#32)) (ix2 p (0 : Fin 1)))
      (Ideal.div (broadcastInDim S50000x1 ![0] bcast_S50000_S50000x1_0
          (Host.reduceAdd (F := Ideal) (mulf (subf x (colsOf (meanCol x))) (subf x (colsOf (meanCol x)))) (constant S_ .f32 0x00000000#32)
            reducesTo_S50000x128_S50000_d1 h_S_) (ix2 p (0 : Fin 1)))
        (broadcastInDim S50000x1 ![] bcast_S_S50000x1 (varDen (F := Ideal)) (ix2 p (0 : Fin 1))))
      (broadcastInDim S50000x1 ![] bcast_S_S50000x1 (id (constant (F := Ideal) S_ .f32 0x7FC00000#32)) (ix2 p (0 : Fin 1))) = _
  rw [Cert.LibBroadcastInDim.scalar_apply, Cert.LibBroadcastInDim.scalar_apply, Cert.LibBroadcastInDim.vec_col_apply, hostRowSum_apply]
  have hg : cmpf (F := Ideal) .ogt (varDen (F := Ideal)) (constant S_ .f32 0x00000000#32) ix0 = 1#1 := varGuard_eq
  rw [hg, select_one, varDen_eq]
  unfold mean
  refine congrArg (fun s => Ideal.div s (Ideal.ofBits .f32 0x43000000#32)) (Finset.sum_congr rfl fun j _ => ?_)
  show (x (ix2 p j) - colsOf (meanCol x) (ix2 p j)) * (x (ix2 p j) - colsOf (meanCol x) (ix2 p j)) = _
  rw [colsOf_apply, meanCol_apply]
  rfl

/-- The normalised rows at (p, o), from row p of x. -/
theorem normOf_apply (x : (⟨S50000x128, .f32⟩ : BufTy).Contents (Elt Ideal)) (g be : (⟨S128, .f32⟩ : BufTy).Contents (Elt Ideal)) (p : Fin 50000) (o : Fin 128) :
    normOf (F := Ideal) x g be (ix2 p o)
      = centred (fun j => x (ix2 p j)) o
          * Ideal.rsqrt (mean (fun j => centred (fun j => x (ix2 p j)) j * centred (fun j => x (ix2 p j)) j) + Ideal.ofBits .f32 0x3727C5AC#32)
          * g (ix1 o) + be (ix1 o) := by
  unfold normOf
  show (x (ix2 p o) - colsOf (meanCol x) (ix2 p o))
        * colsOf (Host.rsqrt (addf (varCol x) (broadcastInDim S50000x1 ![] bcast_S_S50000x1 (constant (F := Ideal) S_ .f32 0x3727C5AC#32)))) (ix2 p o)
        * rowsOf g (ix2 p o) + rowsOf be (ix2 p o) = _
  rw [colsOf_apply, colsOf_apply, rowsOf_apply, rowsOf_apply, meanCol_apply]
  show (x (ix2 p o) - mean fun j => x (ix2 p j))
        * Ideal.rsqrt (varCol x (ix2 p (0 : Fin 1))
            + broadcastInDim S50000x1 ![] bcast_S_S50000x1 (constant (F := Ideal) S_ .f32 0x3727C5AC#32) (ix2 p (0 : Fin 1)))
        * g (ix1 o) + be (ix1 o) = _
  rw [varCol_apply, Cert.LibBroadcastInDim.scalar_apply]
  rfl

/-- The rectified pre-activation over ANY aggregate A, degree vector dg and (already transposed) weights: the stage
    `rectOf` is this at the aggregate and the degree of the edge table and the transposes of the layer's weights. -/
def rectCore (A h : (⟨S50000x128, .f32⟩ : BufTy).Contents (Elt Ideal)) (dg : (⟨S50000, .f32⟩ : BufTy).Contents (Elt Ideal)) (wlT wrT : (⟨S128x128, .f32⟩ : BufTy).Contents (Elt Ideal))
    (b : (⟨S128, .f32⟩ : BufTy).Contents (Elt Ideal)) : (⟨S50000x128, .f32⟩ : BufTy).Contents (Elt Ideal) :=
  maximumf
    (addf
      (addf
        (Host.dotGeneral (F := Ideal) (φ₁ := .f32) (φ₂ := .f32) dot_S50000x128_S128x128_S50000x128_1_0_0_1_n_n none
          (Host.divf A (colsOf (broadcastInDim S50000x1 ![0] bcast_S50000_S50000x1_0 dg))) wlT)
        (rowsOf b))
      (Host.dotGeneral (F := Ideal) (φ₁ := .f32) (φ₂ := .f32) dot_S50000x128_S128x128_S50000x128_1_0_0_1_n_n none h wrT))
    (broadcastInDim S50000x128 ![] bcast_S_S50000x128 (constant S_ .f32 0x00000000#32))

theorem rectOf_eq (h : (⟨S50000x128, .f32⟩ : BufTy).Contents (Elt Ideal)) (e : (⟨S2x800000, .i32⟩ : BufTy).Contents (Elt Ideal)) (wl wr : (⟨S128x128, .f32⟩ : BufTy).Contents (Elt Ideal))
    (b : (⟨S128, .f32⟩ : BufTy).Contents (Elt Ideal)) :
    rectOf (F := Ideal) h e wl wr b
      = rectCore (aggOf (F := Ideal) h e) h (degOf (F := Ideal) e) (transpose S128x128 [1, 0] wl transposes_S128x128_S128x128_1_0)
          (transpose S128x128 [1, 0] wr transposes_S128x128_S128x128_1_0) b := rfl

/-- The rectified pre-activation at (p, o), as the reference spells it. -/
theorem rectCore_apply (A h : (⟨S50000x128, .f32⟩ : BufTy).Contents (Elt Ideal)) (dg : (⟨S50000, .f32⟩ : BufTy).Contents (Elt Ideal)) (wlT wrT : (⟨S128x128, .f32⟩ : BufTy).Contents (Elt Ideal))
    (b : (⟨S128, .f32⟩ : BufTy).Contents (Elt Ideal)) (p : Fin 50000) (o : Fin 128) :
    rectCore A h dg wlT wrT b (ix2 p o)
      = rect (preDiv (fun k => A (ix2 p k)) (fun k => h (ix2 p k)) (dg (ix1 p)) (fun k o => wlT (ix2 k o)) (fun k o => wrT (ix2 k o))
          (fun o => b (ix1 o))) o := by
  unfold rectCore
  have h1 : Host.dotGeneral (F := Ideal) (φ₁ := .f32) (φ₂ := .f32) dot_S50000x128_S128x128_S50000x128_1_0_0_1_n_n none
      (Host.divf A (colsOf (broadcastInDim S50000x1 ![0] bcast_S50000_S50000x1_0 dg))) wlT (ix2 p o)
        = ∑ k : Fin 128, Ideal.div (A (ix2 p k)) (dg (ix1 p)) * wlT (ix2 k o) :=
    (Cert.LibPlainDot.dotGeneral_apply (φ₁ := .f32) (φ₂ := .f32) dot_S50000x128_S128x128_S50000x128_1_0_0_1_n_n rfl rfl rfl rfl rfl rfl none _ _ _ p o).trans
      (Finset.sum_congr rfl fun k _ => congrArg (fun z => Ideal.div (A (ix2 p k)) z * wlT (ix2 k o))
        ((colsOf_apply _ p k).trans (Cert.LibBroadcastInDim.vec_col_apply bcast_S50000_S50000x1_0 dg p 0)))
  have h2 : Host.dotGeneral (F := Ideal) (φ₁ := .f32) (φ₂ := .f32) dot_S50000x128_S128x128_S50000x128_1_0_0_1_n_n none h wrT (ix2 p o) = ∑ k : Fin 128, h (ix2 p k) * wrT (ix2 k o) :=
    Cert.LibPlainDot.dotGeneral_apply (φ₁ := .f32) (φ₂ := .f32) dot_S50000x128_S128x128_S50000x128_1_0_0_1_n_n rfl rfl rfl rfl rfl rfl none _ _ _ p o
  show max ((Host.dotGeneral (F := Ideal) (φ₁ := .f32) (φ₂ := .f32) dot_S50000x128_S128x128_S50000x128_1_0_0_1_n_n none
          (Host.divf A (colsOf (broadcastInDim S50000x1 ![0] bcast_S50000_S50000x1_0 dg))) wlT (ix2 p o)
        + rowsOf b (ix2 p o))
        + Host.dotGeneral (F := Ideal) (φ₁ := .f32) (φ₂ := .f32) dot_S50000x128_S128x128_S50000x128_1_0_0_1_n_n none h wrT (ix2 p o))
      (broadcastInDim S50000x128 ![] bcast_S_S50000x128 (constant (F := Ideal) S_ .f32 0x00000000#32) (ix2 p o)) = _
  rw [h1, h2, rowsOf_apply, Cert.LibBroadcastInDim.scalar_apply]
  rfl

/-- One layer over any aggregate, degree vector and transposed weights, at (p, o): the reference's row of row p's data. -/
theorem layerCore_apply (A h : (⟨S50000x128, .f32⟩ : BufTy).Contents (Elt Ideal)) (dg : (⟨S50000, .f32⟩ : BufTy).Contents (Elt Ideal)) (wlT wrT : (⟨S128x128, .f32⟩ : BufTy).Contents (Elt Ideal))
    (b g be : (⟨S128, .f32⟩ : BufTy).Contents (Elt Ideal)) (p : Fin 50000) (o : Fin 128) :
    normOf (F := Ideal) (rectCore A h dg wlT wrT b) g be (ix2 p o)
      = rowDiv (fun k => A (ix2 p k)) (fun k => h (ix2 p k)) (dg (ix1 p)) (fun k o => wlT (ix2 k o)) (fun k o => wrT (ix2 k o))
          (fun o => b (ix1 o)) (fun o => g (ix1 o)) (fun o => be (ix1 o)) o := by
  rw [normOf_apply]
  simp only [rectCore_apply]
  rfl

/-- ONE LAYER of the reference at (p, o): the reference's row of row p's data. -/
theorem layerOf_apply (h : (⟨S50000x128, .f32⟩ : BufTy).Contents (Elt Ideal)) (e : (⟨S2x800000, .i32⟩ : BufTy).Contents (Elt Ideal)) (wl wr : (⟨S128x128, .f32⟩ : BufTy).Contents (Elt Ideal))
    (b g be : (⟨S128, .f32⟩ : BufTy).Contents (Elt Ideal)) (p : Fin 50000) (o : Fin 128) :
    layerOf (F := Ideal) h e wl wr b g be (ix2 p o)
      = rowDiv (fun k => aggOf (F := Ideal) h e (ix2 p k)) (fun k => h (ix2 p k)) (degOf (F := Ideal) e (ix1 p))
          (fun k o => transpose S128x128 [1, 0] wl transposes_S128x128_S128x128_1_0 (ix2 k o))
          (fun k o => transpose S128x128 [1, 0] wr transposes_S128x128_S128x128_1_0 (ix2 k o))
          (fun o => b (ix1 o)) (fun o => g (ix1 o)) (fun o => be (ix1 o)) o := by
  unfold layerOf
  rw [rectOf_eq]
  exact layerCore_apply _ _ _ _ _ _ _ _ p o

end Cert.ReferenceIdeal.RefRead

end
-- ==== Proof.Bridge.lean ====
/-
  The two programs compute one function.

  One layer, over ANY aggregate A, features h, degree vector dg with nonzero entries and transposed weights: the kernel's
  layer — which multiplies row p of A by a column entry S(p, 0) = 1 / dg(p) and reads the bias, scale and shift from
  one-row matrices — is the reference's layer, which divides row p of A by dg(p) and reads them from vectors. Index by
  index this is the row law: a product with the reciprocal of a nonzero degree is the quotient by it, and the bias may be
  added before or after the second contraction. The two programs build the aggregate, the degree and the sliced weights
  by the same printed operations, so those stages are the same terms in the two programs' vocabularies; the degree is a
  maximum with 1, hence not zero. Two layers composed give the whole network.
-/
import proofs.«100400_j1142461300900_2_alg».proof.Proof.KHost
import proofs.«100400_j1142461300900_2_alg».proof.Proof.RefRead
import proofs.«100400_j1142461300900_2_alg».proof.Proof.LibKeepdims
import proofs.«100400_j1142461300900_2_alg».proof.Proof.LibBroadcastInDim
import Idealize.ShloMosaic.Lib.ValueLayout

noncomputable section

namespace Cert.Proof.Bridge

open Idealize.ShloMosaic Idealize.ShloMosaic.ValueIdx Cert.SageRow

/-- ONE LAYER over variables: the kernel's spelling is the reference's when the column holds the reciprocals of nonzero
    degrees and the one-row matrices hold the parameter vectors. -/
theorem layer_core (A h : (⟨Cert.ReferenceIdeal.S50000x128, .f32⟩ : BufTy).Contents (Elt Ideal)) (dg : (⟨Cert.ReferenceIdeal.S50000, .f32⟩ : BufTy).Contents (Elt Ideal)) (S : (⟨Cert.ReferenceIdeal.S50000x1, .f32⟩ : BufTy).Contents (Elt Ideal))
    (wlT wrT : (⟨Cert.ReferenceIdeal.S128x128, .f32⟩ : BufTy).Contents (Elt Ideal)) (b g be : (⟨Cert.ReferenceIdeal.S128, .f32⟩ : BufTy).Contents (Elt Ideal)) (brow grow berow : (⟨Cert.ReferenceIdeal.S1x128, .f32⟩ : BufTy).Contents (Elt Ideal))
    (hS : ∀ p : Fin 50000, S (ix2 p (0 : Fin 1)) = Ideal.div (Ideal.ofBits .f32 0x3F800000#32) (dg (ix1 p)))
    (hdg : ∀ p : Fin 50000, dg (ix1 p) ≠ 0)
    (hb : ∀ o : Fin 128, brow (ix2 (0 : Fin 1) o) = b (ix1 o)) (hg : ∀ o : Fin 128, grow (ix2 (0 : Fin 1) o) = g (ix1 o))
    (hbe : ∀ o : Fin 128, berow (ix2 (0 : Fin 1) o) = be (ix1 o)) :
    layerMul A h S wlT wrT brow grow berow = Cert.ReferenceIdeal.RefRun.normOf (F := Ideal) (Cert.ReferenceIdeal.RefRead.rectCore A h dg wlT wrT b) g be := by
  funext i
  obtain ⟨p, o, rfl⟩ : ∃ (p : Fin 50000) (o : Fin 128), i = ix2 p o := ⟨i 0, i 1, eq_ix2 i⟩
  rw [layerMul_apply, Cert.ReferenceIdeal.RefRead.layerCore_apply]
  refine (rowMul_congr (fun _ => rfl) (fun _ => rfl) (hS p) (fun _ _ => rfl) (fun _ _ => rfl) hb hg hbe o).trans ?_
  exact congrFun (rowMul_eq_rowDiv _ _ (hdg p) _ _ _ _ _) o

/-! ## The stages are the same terms in the two programs -/

theorem agg_eq (h : (⟨Cert.ReferenceIdeal.S50000x128, .f32⟩ : BufTy).Contents (Elt Ideal)) (e : (⟨Cert.ReferenceIdeal.S2x800000, .i32⟩ : BufTy).Contents (Elt Ideal)) :
    Cert.KernelIdeal.HostSide.aggOf (F := Ideal) h e = Cert.ReferenceIdeal.RefRun.aggOf (F := Ideal) h e := rfl
theorem deg_eq (e : (⟨Cert.ReferenceIdeal.S2x800000, .i32⟩ : BufTy).Contents (Elt Ideal)) : Cert.KernelIdeal.HostSide.degOf (F := Ideal) e = Cert.ReferenceIdeal.RefRun.degOf (F := Ideal) e := rfl
theorem mat0_eq (w : (⟨Cert.ReferenceIdeal.S2x128x128, .f32⟩ : BufTy).Contents (Elt Ideal)) : Cert.KernelIdeal.HostSide.mat0 (F := Ideal) w = Cert.ReferenceIdeal.RefRun.mat0 (F := Ideal) w := rfl
theorem mat1_eq (w : (⟨Cert.ReferenceIdeal.S2x128x128, .f32⟩ : BufTy).Contents (Elt Ideal)) : Cert.KernelIdeal.HostSide.mat1 (F := Ideal) w = Cert.ReferenceIdeal.RefRun.mat1 (F := Ideal) w := rfl
theorem vec0_eq (v : (⟨Cert.ReferenceIdeal.S2x128, .f32⟩ : BufTy).Contents (Elt Ideal)) : Cert.KernelIdeal.HostSide.vec0 (F := Ideal) v = Cert.ReferenceIdeal.RefRun.vec0 (F := Ideal) v := rfl
theorem vec1_eq (v : (⟨Cert.ReferenceIdeal.S2x128, .f32⟩ : BufTy).Contents (Elt Ideal)) : Cert.KernelIdeal.HostSide.vec1 (F := Ideal) v = Cert.ReferenceIdeal.RefRun.vec1 (F := Ideal) v := rfl
theorem wT_eq (w : (⟨Cert.ReferenceIdeal.S128x128, .f32⟩ : BufTy).Contents (Elt Ideal)) :
    Cert.KernelIdeal.HostSide.wT (F := Ideal) w = transpose Cert.ReferenceIdeal.S128x128 [1, 0] w Cert.ReferenceIdeal.Gen.transposes_S128x128_S128x128_1_0 := rfl

/-! ## The kernel's column and rows, read -/

/-- The reciprocal-degree column at (p, 0), over any degree vector. -/
theorem recip_col (dg : (⟨Cert.ReferenceIdeal.S50000, .f32⟩ : BufTy).Contents (Elt Ideal)) (p : Fin 50000) :
    shapeCast Cert.KernelIdeal.S50000x1 (Host.divf (F := Ideal) (broadcastInDim Cert.KernelIdeal.S50000 ![] Cert.KernelIdeal.Gen.bcast_S_S50000 (constant Cert.KernelIdeal.S_ .f32 0x3F800000#32)) dg)
        Cert.KernelIdeal.Gen.shapeCasts_S50000_S50000x1 (ix2 p (0 : Fin 1))
      = Ideal.div (Ideal.ofBits .f32 0x3F800000#32) (dg (ix1 p)) := by
  rw [Cert.LibKeepdims.shapeCast_a_a1_apply]
  show Ideal.div (broadcastInDim Cert.KernelIdeal.S50000 ![] Cert.KernelIdeal.Gen.bcast_S_S50000 (constant (F := Ideal) Cert.KernelIdeal.S_ .f32 0x3F800000#32) (ix1 p)) (dg (ix1 p)) = _
  rw [Cert.LibBroadcastInDim.scalar_apply]
  rfl

/-- A maximum with the all-ones vector is nowhere zero. -/
theorem clamp_ne_zero (X : (⟨Cert.ReferenceIdeal.S50000, .f32⟩ : BufTy).Contents (Elt Ideal)) (p : Fin 50000) :
    maximumf (F := Ideal) X (broadcastInDim Cert.ReferenceIdeal.S50000 ![] Cert.ReferenceIdeal.Gen.bcast_S_S50000 (constant Cert.ReferenceIdeal.S_ .f32 0x3F800000#32)) (ix1 p) ≠ 0 := by
  show max (X (ix1 p)) (broadcastInDim Cert.ReferenceIdeal.S50000 ![] Cert.ReferenceIdeal.Gen.bcast_S_S50000 (constant (F := Ideal) Cert.ReferenceIdeal.S_ .f32 0x3F800000#32) (ix1 p)) ≠ 0
  rw [Cert.LibBroadcastInDim.scalar_apply]
  exact max_one_ne_zero _

/-- ONE LAYER of the two programs, on the same features, edge table and parameters. -/
theorem layer_eq (h : (⟨Cert.ReferenceIdeal.S50000x128, .f32⟩ : BufTy).Contents (Elt Ideal)) (e : (⟨Cert.ReferenceIdeal.S2x800000, .i32⟩ : BufTy).Contents (Elt Ideal)) (wl wr : (⟨Cert.ReferenceIdeal.S128x128, .f32⟩ : BufTy).Contents (Elt Ideal))
    (b g be : (⟨Cert.ReferenceIdeal.S128, .f32⟩ : BufTy).Contents (Elt Ideal)) :
    layerMul (Cert.KernelIdeal.HostSide.aggOf (F := Ideal) h e) h (Cert.KernelIdeal.HostSide.invDeg (F := Ideal) e) (Cert.KernelIdeal.HostSide.wT (F := Ideal) wl) (Cert.KernelIdeal.HostSide.wT (F := Ideal) wr)
        (Cert.KernelIdeal.HostSide.rowOf (F := Ideal) b) (Cert.KernelIdeal.HostSide.rowOf (F := Ideal) g) (Cert.KernelIdeal.HostSide.rowOf (F := Ideal) be)
      = Cert.ReferenceIdeal.RefRun.layerOf (F := Ideal) h e wl wr b g be := by
  unfold Cert.ReferenceIdeal.RefRun.layerOf
  rw [Cert.ReferenceIdeal.RefRead.rectOf_eq, agg_eq, wT_eq, wT_eq]
  refine layer_core _ h (Cert.ReferenceIdeal.RefRun.degOf (F := Ideal) e) _ _ _ b g be _ _ _ (fun p => ?_) (fun p => ?_) (fun o => ?_) (fun o => ?_) (fun o => ?_)
  · exact (recip_col (Cert.KernelIdeal.HostSide.degOf (F := Ideal) e) p).trans (by rw [deg_eq])
  · exact clamp_ne_zero _ p
  · exact shapeCast_a_1a_apply b Cert.KernelIdeal.Gen.shapeCasts_S128_S1x128 0 o
  · exact shapeCast_a_1a_apply g Cert.KernelIdeal.Gen.shapeCasts_S128_S1x128 0 o
  · exact shapeCast_a_1a_apply be Cert.KernelIdeal.Gen.shapeCasts_S128_S1x128 0 o

/-- THE NETWORK: the kernel program's two layers are the reference's. -/
theorem net_eq (x : (⟨Cert.ReferenceIdeal.S50000x128, .f32⟩ : BufTy).Contents (Elt Ideal)) (e : (⟨Cert.ReferenceIdeal.S2x800000, .i32⟩ : BufTy).Contents (Elt Ideal)) (Wl : (⟨Cert.ReferenceIdeal.S2x128x128, .f32⟩ : BufTy).Contents (Elt Ideal))
    (bl : (⟨Cert.ReferenceIdeal.S2x128, .f32⟩ : BufTy).Contents (Elt Ideal)) (Wr : (⟨Cert.ReferenceIdeal.S2x128x128, .f32⟩ : BufTy).Contents (Elt Ideal)) (ga be : (⟨Cert.ReferenceIdeal.S2x128, .f32⟩ : BufTy).Contents (Elt Ideal)) :
    Cert.KernelIdeal.HostSide.layer2 x e Wl bl Wr ga be = Cert.ReferenceIdeal.RefRun.netOf (F := Ideal) x e Wl bl Wr ga be := by
  unfold Cert.KernelIdeal.HostSide.layer2 Cert.KernelIdeal.HostSide.layer1 Cert.ReferenceIdeal.RefRun.netOf
  rw [mat0_eq, mat0_eq, mat1_eq, mat1_eq, vec0_eq, vec0_eq, vec0_eq, vec1_eq, vec1_eq, vec1_eq, layer_eq, layer_eq]

end Cert.Proof.Bridge

end
-- ==== Proof.lean ====
/-
  Two SAGE layers with layer normalisation, fused kernel against its jnp reference: the five claims.

  Both programs compute, twice, out = LN(relu((agg / deg)·Wlᵀ + b + h·Wrᵀ))·γ + β, where agg sums the source rows of h
  into their destination rows and deg is the clamped in-degree. The kernel's program computes 1 / deg once on the host,
  multiplies by it inside the kernel, adds the bias after the second product, and runs each layer as a launch of ten
  blocks of 5000 rows; the reference divides by deg and adds the bias between the products. On the extended reals the
  two agree for every input: a product with the reciprocal of a nonzero number is the quotient by it, deg ≥ 1 is not
  zero, and addition is commutative and associative (the modules under Proof/ carry this from rows to blocks to arrays
  to the two runs). The precondition is never opened. The three frame claims are the generated frames of the two kernel
  programs and the reference's own run with the result dropped; the idealisation rewrote nothing, so `preserves` is
  trivial.
-/
import proofs.«100400_j1142461300900_2_alg».proof.Defs
import proofs.«100400_j1142461300900_2_alg».proof.Proof.Gen.Kernel
import proofs.«100400_j1142461300900_2_alg».proof.Proof.Gen.Kernel.Frame
import proofs.«100400_j1142461300900_2_alg».proof.Proof.Gen.KernelIdeal
import proofs.«100400_j1142461300900_2_alg».proof.Proof.Gen.KernelIdeal.Frame
import proofs.«100400_j1142461300900_2_alg».proof.Proof.Gen.ReferenceIdeal
import proofs.«100400_j1142461300900_2_alg».proof.Proof.Gen.Pre_finite_inputs
import proofs.«100400_j1142461300900_2_alg».proof.Proof.KRun
import proofs.«100400_j1142461300900_2_alg».proof.Proof.KHost
import proofs.«100400_j1142461300900_2_alg».proof.Proof.RefValue
import proofs.«100400_j1142461300900_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates and leaves its arguments alone: its run, the fold read at each argument buffer. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefRun.arg_kept _ 0), (h c Cert.ReferenceIdeal.main_arg1).trans (Cert.ReferenceIdeal.RefRun.arg_kept _ 1),
     (h c Cert.ReferenceIdeal.main_arg2).trans (Cert.ReferenceIdeal.RefRun.arg_kept _ 2), (h c Cert.ReferenceIdeal.main_arg3).trans (Cert.ReferenceIdeal.RefRun.arg_kept _ 3),
     (h c Cert.ReferenceIdeal.main_arg4).trans (Cert.ReferenceIdeal.RefRun.arg_kept _ 4), (h c Cert.ReferenceIdeal.main_arg5).trans (Cert.ReferenceIdeal.RefRun.arg_kept _ 5),
     (h c Cert.ReferenceIdeal.main_arg6).trans (Cert.ReferenceIdeal.RefRun.arg_kept _ 6)⟩)
    (Cert.ReferenceIdeal.RefRun.run_all (F := Ideal) m ρ)

/-- The idealisation rewrote no operation. -/
theorem preserves : Cert.preserves_Kernel_KernelIdeal := trivial

/-- From memories agreeing on the arguments both programs end with the second layer of the first layer of the argument
    arrays in their result buffers, and with the arguments as they were. -/
theorem algebraic : Cert.algebraic_KernelIdeal_ReferenceIdeal := by
  intro m ρ m' ρ' _ hagree
  refine ⟨fun c => Cert.KernelIdeal.HostSide.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c Cert.KernelIdeal.main_v64 (by decide)).trans (Cert.KernelIdeal.HostSide.W4_v64 m ρ c),
       (h c Cert.KernelIdeal.main_arg0 (by decide)).trans (Cert.KernelIdeal.Gen.W4_main_arg0 m ρ c),
       (h c Cert.KernelIdeal.main_arg1 (by decide)).trans (Cert.KernelIdeal.Gen.W4_main_arg1 m ρ c),
       (h c Cert.KernelIdeal.main_arg2 (by decide)).trans (Cert.KernelIdeal.Gen.W4_main_arg2 m ρ c),
       (h c Cert.KernelIdeal.main_arg3 (by decide)).trans (Cert.KernelIdeal.Gen.W4_main_arg3 m ρ c),
       (h c Cert.KernelIdeal.main_arg4 (by decide)).trans (Cert.KernelIdeal.Gen.W4_main_arg4 m ρ c),
       (h c Cert.KernelIdeal.main_arg5 (by decide)).trans (Cert.KernelIdeal.Gen.W4_main_arg5 m ρ c),
       (h c Cert.KernelIdeal.main_arg6 (by decide)).trans (Cert.KernelIdeal.Gen.W4_main_arg6 m ρ c)⟩)
      (Cert.KernelIdeal.RunAll.run_end (F := Ideal) m ρ)
  · refine (θ_run Cert.ReferenceIdeal.defs _ _).mono (fun r h c =>
      ⟨?_, (h c Cert.ReferenceIdeal.main_arg0).trans (Cert.ReferenceIdeal.RefRun.arg_kept _ 0), (h c Cert.ReferenceIdeal.main_arg1).trans (Cert.ReferenceIdeal.RefRun.arg_kept _ 1),
       (h c Cert.ReferenceIdeal.main_arg2).trans (Cert.ReferenceIdeal.RefRun.arg_kept _ 2), (h c Cert.ReferenceIdeal.main_arg3).trans (Cert.ReferenceIdeal.RefRun.arg_kept _ 3),
       (h c Cert.ReferenceIdeal.main_arg4).trans (Cert.ReferenceIdeal.RefRun.arg_kept _ 4), (h c Cert.ReferenceIdeal.main_arg5).trans (Cert.ReferenceIdeal.RefRun.arg_kept _ 5),
       (h c Cert.ReferenceIdeal.main_arg6).trans (Cert.ReferenceIdeal.RefRun.arg_kept _ 6)⟩)
      (Cert.ReferenceIdeal.RefRun.run_all (F := Ideal) m' ρ')
    refine (h c Cert.ReferenceIdeal.main_v115).trans ((Cert.ReferenceIdeal.RefRun.out_eq _).trans ?_)
    show Cert.ReferenceIdeal.RefRun.netOf (F := Ideal)
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = _
    rw [(hagree c).1, (hagree c).2.1, (hagree c).2.2.1, (hagree c).2.2.2.1, (hagree c).2.2.2.2.1, (hagree c).2.2.2.2.2.1,
      (hagree c).2.2.2.2.2.2]
    exact (Cert.Proof.Bridge.net_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
